-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S200x64 : Shape := ⟨2, ![200, 64]⟩
abbrev S_ : Shape := ⟨0, ![]⟩

class Facts : Prop where
  bcast_S_S200x64 : S_.BroadcastsInDim S200x64 (![] : Fin 0 → Fin S200x64.rank)
  reducesTo_S200x64_S_d0_1 : S200x64.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S200x64 .f32) : IVec S_ 1 :=
  let main_v0 : FVec F S200x64 .f32 := Host.absf main_arg1
  let main_cst : FVec F S_ .f32 := constant S_ .f32 0x7F800000#32
  let main_v1 : FVec F S200x64 .f32 := broadcastInDim S200x64 ![] bcast_S_S200x64 main_cst
  let main_v2 : IVec S200x64 1 := cmpf .olt main_v0 main_v1
  let main_c : IVec S_ 1 := constantI S_ 1 1#1
  let main_v3 : IVec S_ 1 := (fun x v => Host.reduce IntOp.andi x v reducesTo_S200x64_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 199#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S200x64 : Shape := ⟨2, ![200, 64]⟩
abbrev S1x12800 : Shape := ⟨2, ![1, 12800]⟩
abbrev S4096x12800 : Shape := ⟨2, ![4096, 12800]⟩
abbrev S_ : Shape := ⟨0, ![]⟩
abbrev S12800 : Shape := ⟨1, ![12800]⟩
abbrev S4096x200x64 : Shape := ⟨3, ![4096, 200, 64]⟩

abbrev nBuf : Table → Nat
  | .hbm => 5
  | .local .scVector .vmem => 1
  | _ => 0

abbrev bufTy : (tb : Table) → Fin (nBuf tb) → BufTy
  | .hbm, ⟨0, _⟩ => ⟨S4096x200, .i32⟩
  | .hbm, ⟨1, _⟩ => ⟨S200x64, .f32⟩
  | .hbm, ⟨2, _⟩ => ⟨S1x12800, .f32⟩
  | .hbm, ⟨3, _⟩ => ⟨S4096x12800, .f32⟩
  | .hbm, ⟨4, _⟩ => ⟨S4096x200x64, .f32⟩
  | .local .scVector .vmem, ⟨0, _⟩ => ⟨S1x12800, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32_1
  let c0_i32_2 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S200x64_S1x12800 : S200x64.ShapeCasts S1x12800
  inb_S1x12800_S1x12800_0_0 : ∀ a, (![0, 0] : Fin 2 → Nat) a + S1x12800.size a ≤ S1x12800.size a
  squeezes_S1x12800_S12800 : S1x12800.Squeezes S12800
  shapeCasts_S4096x12800_S4096x200x64 : S4096x12800.ShapeCasts S4096x200x64
  hcc0_scratch1 : 0 + S_.numel ≤ 2
  hcc0_scoped0 : 1 + S_.numel ≤ 2
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 128), ∀ a, (k0_off1 i (BitVec.ofNat 32 r.val)) a + S1x12800.size a ≤ S4096x12800.size a

variable [Facts₀]

abbrev cc0_scratch1 : DmaSems sig S_ := SemArray.consecutive 0 S_ hcc0_scratch1
abbrev cc0_scoped0 : DmaSems sig S_ := SemArray.consecutive 1 S_ hcc0_scoped0

class Facts : Prop extends Facts₀ where

variable [Facts]
-- ==== ReferenceIdeal.lean ====
abbrev S4096x200 : Shape := ⟨2, ![4096, 200]⟩
abbrev S200x64 : Shape := ⟨2, ![200, 64]⟩
abbrev S200 : Shape := ⟨1, ![200]⟩
abbrev S1x200 : Shape := ⟨2, ![1, 200]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 28
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S200x64, .f32⟩
  | .hbm, ⟨2, _⟩ => ⟨S200, .i32⟩
  | .hbm, ⟨3, _⟩ => ⟨S1x200, .i32⟩
  | .hbm, ⟨4, _⟩ => ⟨S4096x200, .i32⟩
  | .hbm, ⟨5, _⟩ => ⟨S_, .i32⟩
  | .hbm, ⟨6, _⟩ => ⟨S4096x200, .i32⟩
  | .hbm, ⟨7, _⟩ => ⟨S4096x200, .i1⟩
  | .hbm, ⟨8, _⟩ => ⟨S_, .i32⟩
  | .hbm, ⟨9, _⟩ => ⟨S4096x200, .i32⟩
  | .hbm, ⟨10, _⟩ => ⟨S4096x200, .i32⟩
  | .hbm, ⟨11, _⟩ => ⟨S4096x200, .i32⟩
  | .hbm, ⟨12, _⟩ => ⟨S4096x200x1, .i32⟩
  | .hbm, ⟨13, _⟩ => ⟨S1, .i32⟩
  | .hbm, ⟨14, _⟩ => ⟨S_, .i32⟩
  | .hbm, ⟨15, _⟩ => ⟨S4096x200x1, .i32⟩
  | .hbm, ⟨16, _⟩ => ⟨S4096x200x1, .i1⟩
  | .hbm, ⟨17, _⟩ => ⟨S1x1x1, .i32⟩
  | .hbm, ⟨18, _⟩ => ⟨S4096x200x1, .i32⟩
  | .hbm, ⟨19, _⟩ => ⟨S4096x200x1, .i1⟩
  | .hbm, ⟨20, _⟩ => ⟨S4096x200x1, .i1⟩
  | .hbm, ⟨21, _⟩ => ⟨S_, .i1⟩
  | .hbm, ⟨22, _⟩ => ⟨S4096x200, .i1⟩
  | .hbm, ⟨23, _⟩ => ⟨S4096x200x64, .f32⟩
  | .hbm, ⟨24, _⟩ => ⟨S4096x200x64, .i1⟩
  | .hbm, ⟨25, _⟩ => ⟨S_, .f32⟩
  | .hbm, ⟨26, _⟩ => ⟨S4096x200x64, .f32⟩
  | .hbm, ⟨27, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩

abbrev nD : Nat := 1
abbrev τ : Topo := Topo.v7x

variable {F : FTy → Type} [FloatOps F]

class Facts₀ : Prop where
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  gather_S200x64_S4096x200x1_S4096x200x64_2_0_n_n_0_2_164_wf : GatherDims.WF S200x64 S4096x200x1 S4096x200x64 [2] [0] [] [0] [] 2 ![1, 64]

variable [Facts₀]

def gather_S200x64_S4096x200x1_S4096x200x64_2_0_n_n_0_2_164 : GatherDims S200x64 S4096x200x1 S4096x200x64 where
  offsetDims := [2]
  collapsedSliceDims := [0]
  operandBatchingDims := []
  startIndicesBatchingDims := []
  startIndexMap := [0]
  indexVectorDim := 2
  sliceSizes := ![1, 64]
  wf := gather_S200x64_S4096x200x1_S4096x200x64_2_0_n_n_0_2_164_wf

class Facts : Prop extends Facts₀ where

variable [Facts]
-- ==== Proof.Spec.lean ====
/-
  The function both programs compute. The position table `pe` has one row of 64 numbers per position
  `s < 200`; the result repeats the whole table once for each of the 4096 batch rows: entry `(b, s, d)`
  of the result is entry `(s, d)` of the table, whatever `b` is. No arithmetic is done on the entries, so
  the function is stated for any type of entries.
-/
import Idealize.ShloMosaic.Lib.ValueIdx

namespace Cert.Spec

open Idealize.ShloMosaic Idealize.ShloMosaic.ValueIdx

/-- The table repeated along a new leading axis of extent 4096. -/
def tiled {α : Type} (pe : (⟨2, ![200, 64]⟩ : Shape).Idx → α) : (⟨3, ![4096, 200, 64]⟩ : Shape).Idx → α :=
  fun i => pe (ix2 (n0 := 200) (n1 := 64) (i 1) (i 2))

theorem tiled_apply {α : Type} (pe : (⟨2, ![200, 64]⟩ : Shape).Idx → α) (b : Fin 4096) (s : Fin 200) (d : Fin 64) :
    tiled pe (ix3 b s d) = pe (ix2 s d) := rfl

end Cert.Spec
-- ==== Proof.KBCommon.lean ====
/-
  The broadcast kernel as the launch theorem sees it, and the vocabulary of its proof: the arrays, the
  rows of the result each vector subcore fills, and the sets of rows a SparseCore and a vector subcore
  are handed. Vector subcore `s` of SparseCore `c` is worker `w = 2 s + c`; it fills the 128 rows
  `128 w … 128 w + 127` of the 4096-row result, every one with the single row of the flattened table.
-/
import proofs.«213661_g87797721464909_cont_9to1_m_233_16_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«213661_g87797721464909_cont_9to1_m_233_16_alg».proof.Proof.Gen.Kernel
import proofs.«213661_g87797721464909_cont_9to1_m_233_16_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The index array (unused by the kernel), the table, the flattened table, the 4096 x 12800 result, its reshaping. -/
abbrev aLoc (d : Dev nD) : Loc nD τ sig := (SparseCore.T d).loc main_arg0
abbrev peLoc (d : Dev nD) : Loc nD τ sig := (SparseCore.T d).loc main_arg1
abbrev pLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev pW : Memref sig .scVector .hbm S1x12800 .f32 := Memref.whole main_v0_scv
abbrev oW : Memref sig .scVector .hbm S4096x12800 .f32 := Memref.whole main_v1_scv
abbrev sW : Memref sig .scVector .vmem S1x12800 .f32 := Memref.whole cc0_scratch0

/-- Row `k` (of 128) of the block of vector subcore `L`, as the kernel slices it. -/
abbrev rowM (L : grid0.Coords) (k : Fin 128) : Memref sig .scVector .hbm S1x12800 .f32 :=
  (oW).slice (Rect.unit (s := S4096x12800) (k0_off1 L (BitVec.ofNat 32 k.val)) S1x12800.size (k0_off1_inb L k)) (fun _ => rfl)

abbrev cV (L : grid0.Coords) : Fin τ.nSC := (L 0).castLE hcore0
abbrev jV (L : grid0.Coords) : Fin τ.nSub := (L 1).castLE hsub0

/-- The rows `0 … 127`, listed: a subcore's rows are handed to its proof one by one. -/
abbrev rows128 : List (Fin 128) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127]

end Cert.Proof.KB

end
-- ==== Proof.KBPay.lean ====
/-
  What the launch's handshakes carry. The TensorCore hands each SparseCore a read share of the flattened
  table and the result rows of that SparseCore's sixteen workers; the sequencer hands each vector subcore
  a smaller read share and its own 128 rows; back come the same rows, every one holding the flattened
  table. Rows are named by their number: a set of rows of the 4096 x 12800 result is the set of its
  indices whose first coordinate lies in a set of naturals.
-/
import proofs.«213661_g87797721464909_cont_9to1_m_233_16_alg».proof.Proof.KBCommon
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Sets of result rows -/

/-- The indices of the 4096 x 12800 result whose row number lies in `s`. -/
def rowsIn (s : Finset ℕ) : Finset S4096x12800.Idx := Finset.univ.filter fun i => (i 0).val ∈ s

theorem mem_rowsIn {s : Finset ℕ} {i : S4096x12800.Idx} : i ∈ rowsIn s ↔ (i 0).val ∈ s := by
  unfold rowsIn; rw [Finset.mem_filter]; exact ⟨fun h => h.2, fun h => ⟨Finset.mem_univ _, h⟩⟩

/-- Worker `w` fills rows `128 w … 128 w + 127`. -/
def blockRows (w : ℕ) : Finset ℕ := Finset.Ico (128 * w) (128 * w + 128)

/-- SparseCore `c`'s sixteen workers are `2 s + c`, `s < 16`. -/
def coreRows (c : ℕ) : Finset ℕ := (Finset.range 16).biUnion fun s => blockRows (2 * s + c)

/-! ## Contents -/

variable (m : (ℓ : Loc nD τ sig) → Buf (Elt F) ℓ)

/-- The flattened table: the table's launch contents read in row-major order as one row of 12800. -/
def flat (d : Dev nD) : Buf (Elt F) (pLoc d) :=
  fun i => shapeCast S1x12800 (m (peLoc d)) Facts₀.shapeCasts_S200x64_S1x12800 i

/-- The result the kernel leaves: every row is the flattened table. -/
def bcast (d : Dev nD) : Buf (Elt F) (oLoc d) :=
  fun i => flat m d (ValueIdx.ix2 (n0 := 1) (n1 := 12800) 0 (i 1))

/-! ## Read shares of the flattened table: one per SparseCore, of it one per vector subcore -/

abbrev qC (c : ℕ) : PosShare TreeShare := Transfers.shareTokN fullShare c
abbrev qT (c i : ℕ) : PosShare TreeShare := Transfers.shareTokN (qC c) i

/-! ## The payloads -/

def P : (K (F := F)).Pay (nD := nD) (Val := Elt F) (Name := ℕ) (U := UU) where
  st := fun _ d c => iprop((pLoc d ↦{qC c.val} flat m d) ∗ (oLoc d ↦[rowsIn (coreRows c.val)]{fullShare} m (oLoc d)))
  dn := fun _ d c => iprop((pLoc d ↦{qC c.val} flat m d) ∗ (oLoc d ↦[rowsIn (coreRows c.val)]{fullShare} bcast m d))
  go := fun _ d c i => iprop((pLoc d ↦{qT c.val i.val} flat m d) ∗ (oLoc d ↦[rowsIn (blockRows (2 * i.val + c.val))]{fullShare} m (oLoc d)))
  td := fun _ d c i => iprop((pLoc d ↦{qT c.val i.val} flat m d) ∗ (oLoc d ↦[rowsIn (blockRows (2 * i.val + c.val))]{fullShare} bcast m d))
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.KB

end
-- ==== Proof.KBLaunchSplit.lean ====
/-
  How the result's 4096 rows and the read shares of the flattened table are dealt out: the TensorCore
  hands each of the two SparseCores the rows of its sixteen workers, and a SparseCore hands each worker
  its own block of 128 rows. Every such split is a disjoint union of sets of row numbers, so the facts
  needed are arithmetic on naturals below 4096; the points-to assertions follow them.
-/
import proofs.«213661_g87797721464909_cont_9to1_m_233_16_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

namespace Launch

/-! ## Sets of rows: unions and disjointness are arithmetic on row numbers -/

theorem rowsIn_disjoint {s t : Finset ℕ} (h : Disjoint s t) : Disjoint (rowsIn s) (rowsIn t) :=
  Finset.disjoint_left.mpr fun _ hs ht => Finset.disjoint_left.mp h (mem_rowsIn.mp hs) (mem_rowsIn.mp ht)

theorem mem_blockRows {w x : ℕ} : x ∈ blockRows w ↔ 128 * w ≤ x ∧ x < 128 * w + 128 := by
  unfold blockRows; exact Finset.mem_Ico

theorem mem_coreRows {c x : ℕ} : x ∈ coreRows c ↔ ∃ s, s < 16 ∧ 128 * (2 * s + c) ≤ x ∧ x < 128 * (2 * s + c) + 128 := by
  unfold coreRows
  rw [Finset.mem_biUnion]
  exact ⟨fun ⟨s, hs, h⟩ => ⟨s, Finset.mem_range.mp hs, mem_blockRows.mp h⟩, fun ⟨s, hs, h⟩ => ⟨s, Finset.mem_range.mpr hs, mem_blockRows.mpr h⟩⟩

/-- Two workers' blocks of rows do not meet. -/
theorem blockRows_disjoint {w w' : ℕ} (h : w ≠ w') : Disjoint (blockRows w) (blockRows w') := by
  refine Finset.disjoint_left.mpr fun x h1 h2 => ?_
  rw [mem_blockRows] at h1 h2; omega

/-- A SparseCore's rows are its sixteen workers' blocks. -/
theorem rowsIn_coreRows (c : ℕ) :
    rowsIn (coreRows c) = (Finset.univ : Finset (Fin 16)).biUnion fun i => rowsIn (blockRows (2 * i.val + c)) := by
  ext x
  rw [mem_rowsIn, mem_coreRows, Finset.mem_biUnion]
  constructor
  · rintro ⟨s, hs, h⟩; exact ⟨⟨s, hs⟩, Finset.mem_univ _, mem_rowsIn.mpr (mem_blockRows.mpr h)⟩
  · rintro ⟨i, -, h⟩; exact ⟨i.val, i.isLt, mem_blockRows.mp (mem_rowsIn.mp h)⟩

theorem blocks_disjoint (c : ℕ) : ∀ i ∈ (Finset.univ : Finset (Fin 16)), ∀ j ∈ (Finset.univ : Finset (Fin 16)), i ≠ j →
    Disjoint (rowsIn (blockRows (2 * i.val + c))) (rowsIn (blockRows (2 * j.val + c))) :=
  fun i _ j _ h => rowsIn_disjoint (blockRows_disjoint (by have := Fin.val_ne_of_ne h; omega))

/-- The two SparseCores' rows do not meet (worker numbers of different parity), -/
theorem cores_disjoint : ∀ c ∈ (Finset.univ : Finset (Fin 2)), ∀ c' ∈ (Finset.univ : Finset (Fin 2)), c ≠ c' →
    Disjoint (rowsIn (coreRows c.val)) (rowsIn (coreRows c'.val)) := by
  intro c _ c' _ h
  refine rowsIn_disjoint (Finset.disjoint_left.mpr fun x h1 h2 => ?_)
  rw [mem_coreRows] at h1 h2
  obtain ⟨s, _, h1⟩ := h1; obtain ⟨s', _, h2⟩ := h2
  have := Fin.val_ne_of_ne h; have := c.isLt; have := c'.isLt
  omega

/-- and together they are all 4096 rows. -/
theorem cores_cover : (Finset.univ : Finset (Fin 2)).biUnion (fun c => rowsIn (coreRows c.val)) = (Finset.univ : Finset S4096x12800.Idx) := by
  ext x
  rw [Finset.mem_biUnion]
  refine ⟨fun _ => Finset.mem_univ _, fun _ => ?_⟩
  have hx : (x 0).val < 4096 := (x 0).isLt
  refine ⟨⟨(x 0).val / 128 % 2, Nat.mod_lt _ (by decide)⟩, Finset.mem_univ _, mem_rowsIn.mpr (mem_coreRows.mpr ⟨(x 0).val / 256, ?_, ?_, ?_⟩)⟩
  · omega
  · show 128 * (2 * ((x 0).val / 256) + (x 0).val / 128 % 2) ≤ (x 0).val; omega
  · show (x 0).val < 128 * (2 * ((x 0).val / 256) + (x 0).val / 128 % 2) + 128; omega

/-! ## The result's rows dealt out: to the SparseCores, and within one to its workers -/

theorem oPts_cores (d : Dev nD) (f : Buf (Elt F) (oLoc d)) :
    (oLoc d ↦{fullShare} f : sProp 𝕄) = bigSep Finset.univ fun c : Fin 2 => oLoc d ↦[rowsIn (coreRows c.val)]{fullShare} f := by
  rw [← pointsTo_biUnion Finset.univ (ℓ := oLoc d) (fun c : Fin 2 => rowsIn (coreRows c.val)) cores_disjoint, cores_cover]

theorem oPts_blocks (d : Dev nD) (c : ℕ) (f : Buf (Elt F) (oLoc d)) :
    (oLoc d ↦[rowsIn (coreRows c)]{fullShare} f : sProp 𝕄) = bigSep Finset.univ fun i : Fin 16 => oLoc d ↦[rowsIn (blockRows (2 * i.val + c))]{fullShare} f := by
  rw [rowsIn_coreRows, pointsTo_biUnion Finset.univ (ℓ := oLoc d) (fun i : Fin 16 => rowsIn (blockRows (2 * i.val + c))) (blocks_disjoint c)]

end Launch

open Launch

variable [FloatOps F]

/-! ## A SparseCore's operands split among its sixteen workers

The sixteen read tokens are split off the SparseCore's own token and the remainder is kept inside the returned
wand; the SparseCore's rows are dealt block by block. Coming back, the tokens rejoin the remainder and the blocks,
each now holding the flattened table, make up the SparseCore's rows again. -/

theorem vecSplit : (K (F := F)).VecSplit' (P m) 0 := by
  intro d c
  show iprop((pLoc d ↦{qC c.val} flat m d) ∗ (oLoc d ↦[rowsIn (coreRows c.val)]{fullShare} m (oLoc d))) ⊢ |={Set.univ}=> iprop(
      (bigSep Finset.univ fun i : Fin 16 =>
        iprop((pLoc d ↦{qT c.val i.val} flat m d) ∗ (oLoc d ↦[rowsIn (blockRows (2 * i.val + c.val))]{fullShare} m (oLoc d))))
      ∗ ((bigSep Finset.univ fun i : Fin 16 =>
          iprop((pLoc d ↦{qT c.val i.val} flat m d) ∗ (oLoc d ↦[rowsIn (blockRows (2 * i.val + c.val))]{fullShare} bcast m d)))
          -∗ iprop((pLoc d ↦{qC c.val} flat m d) ∗ (oLoc d ↦[rowsIn (coreRows c.val)]{fullShare} bcast m d))))
  rw [bigSep_sep', bigSep_sep', oPts_blocks, oPts_blocks]
  iintro ⟨Hp, Ho⟩
  ihave Hp' := (Transfers.pointsTo_toks_split (qC c.val) 16) $$ Hp
  icases Hp' with ⟨Hrest, Htoks⟩
  imodintro
  isplitl [Htoks Ho]
  · isplitl [Htoks]; · iexact Htoks
    iexact Ho
  iintro ⟨Htoks, Ho⟩
  isplitl [Hrest Htoks]
  · iapply (Transfers.pointsTo_toks_join (qC c.val) 16)
    isplitl [Hrest]; · iexact Hrest
    iexact Htoks
  iexact Ho

end Cert.Proof.KB

end
-- ==== Proof.KBLaunch.lean ====
/-
  The launch side of the broadcast kernel's run. The launch element of the ghost state is the handshakes'
  rounds beside empty transfer counters. @main on the TensorCore flattens the 200 x 64 table into one row of
  12800, hands each SparseCore a read token of that row and the result's rows of its workers, takes back
  all 4096 rows each holding the flattened table, and reads the 4096 x 12800 result as 4096 x 200 x 64. That
  last reading is the table repeated along a new leading axis: position (b * 200 + s) * 64 + e of the
  three-dimensional array is row b, column s * 64 + e of the two-dimensional one, and column s * 64 + e of
  the flattened table is entry (s, e) of the table. The final memory then reads off the claim.
-/
import proofs.«213661_g87797721464909_cont_9to1_m_233_16_alg».proof.Proof.KBLaunchSplit
import proofs.«213661_g87797721464909_cont_9to1_m_233_16_alg».proof.Proof.Spec
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.ValueIdx

variable (m : (ℓ : Loc nD τ sig) → Buf (Elt F) ℓ) (ρ : Dev nD → PrngReg)

variable [FloatOps F]

open Launch

/-! ## The launch element: the handshakes' rounds; the transfers' counters start empty -/

def u₀ : UU := (initOf (K (F := F)).hsCells (K (F := F)).hsToks, 1)

omit [FloatOps F] in
theorem Launch.bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

namespace Launch

/-! ## The value: the broadcast result read as 4096 x 200 x 64 is the table repeated

Position `(b * 200 + s) * 64 + e` of the three-dimensional result is row `b`, column `s * 64 + e` of the
two-dimensional one; every row of that is the flattened table, whose column `s * 64 + e` is entry `(s, e)`
of the table. -/

omit [FloatOps F] in
theorem flat_apply (d : Dev nD) (s : Fin 200) (e : Fin 64) (col : Fin 12800) (h : col.val = s.val * 64 + e.val) :
    flat m d (ix2 (n0 := 1) (n1 := 12800) 0 col) = m (peLoc d) (ix2 (n0 := 200) (n1 := 64) s e) := by
  unfold flat
  refine shapeCast_apply _ _ _ _ ?_
  show ((⟨2, ![200, 64]⟩ : Shape).rowMajor (ix2 (n0 := 200) (n1 := 64) s e)).val = ((⟨2, ![1, 12800]⟩ : Shape).rowMajor (ix2 (n0 := 1) (n1 := 12800) 0 col)).val
  rw [Shape.rowMajor_val_two, Shape.rowMajor_val_two]
  show s.val * 64 + e.val = 0 * 12800 + col.val
  omega

omit [FloatOps F] in
theorem cast_bcast_apply (d : Dev nD) (b : Fin 4096) (s : Fin 200) (e : Fin 64) :
    shapeCast S4096x200x64 (bcast m d) Facts₀.shapeCasts_S4096x12800_S4096x200x64 (ix3 (n0 := 4096) (n1 := 200) (n2 := 64) b s e)
      = m (peLoc d) (ix2 (n0 := 200) (n1 := 64) s e) := by
  have hc : s.val * 64 + e.val < 12800 := by have := s.isLt; have := e.isLt; omega
  refine (shapeCast_apply (bcast m d) _ _ (ix2 (n0 := 4096) (n1 := 12800) b ⟨s.val * 64 + e.val, hc⟩) ?_).trans ?_
  · show ((⟨2, ![4096, 12800]⟩ : Shape).rowMajor (ix2 (n0 := 4096) (n1 := 12800) b ⟨s.val * 64 + e.val, hc⟩)).val
      = ((⟨3, ![4096, 200, 64]⟩ : Shape).rowMajor (ix3 (n0 := 4096) (n1 := 200) (n2 := 64) b s e)).val
    rw [Shape.rowMajor_val_two, Shape.rowMajor_val_three]
    show b.val * 12800 + (s.val * 64 + e.val) = (b.val * 200 + s.val) * 64 + e.val
    omega
  · exact flat_apply m d s e ⟨s.val * 64 + e.val, hc⟩ rfl

omit [FloatOps F] in
/-- The result's last reading is the table repeated along the new leading axis. -/
theorem cast_bcast (d : Dev nD) :
    (fun j => shapeCast S4096x200x64 (bcast m d) Facts₀.shapeCasts_S4096x12800_S4096x200x64 j) = Cert.Spec.tiled (m (peLoc d)) := by
  funext j
  rw [eq_ix3 j]
  exact cast_bcast_apply m d (j 0) (j 1) (j 2)

/-! ## @main on the TensorCore -/

abbrev a' : DevRef τ sig := Proc.devRef .tc (main_arg0 : Ref sig .tc)
abbrev pe' : DevRef τ sig := Proc.devRef .tc (main_arg1 : Ref sig .tc)
abbrev p' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opFlat : HloOp τ sig (Elt F) := StableHlo.reshape main_arg1 main_v0 rfl Facts₀.shapeCasts_S200x64_S1x12800
abbrev opTile : HloOp τ sig (Elt F) := StableHlo.reshape main_v1 main_v2 rfl Facts₀.shapeCasts_S4096x12800_S4096x200x64

/-- The TensorCore's arrays, all unscoped. -/
abbrev S5 : Finset (DevRef τ sig) := {a', pe', p', o', r'}

omit [FloatOps F] in
theorem held_S5 (d : Dev nD) (W : Valuation τ sig (Elt F)) :
    (held (T d) S5 W : sProp 𝕄) = iprop((aLoc d ↦{fullShare} W a') ∗ (peLoc d ↦{fullShare} W pe') ∗ (pLoc d ↦{fullShare} W p')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (peLoc d ↦{fullShare} W main_arg1) ∗ (pLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; before the last reshape, the flattened table and the broadcast result in place. -/
def V0 (d : Dev nD) : Valuation τ sig (Elt F) := fun b => m (d, b)
def V1 (d : Dev nD) : Valuation τ sig (Elt F) := Function.update (Function.update (V0 m d) p' (flat m d)) o' (bcast m d)

omit [FloatOps F] in
theorem unscoped_held (d : Dev nD) : (unscopedBufs d (fun b => m ((SparseCore.T d).loc b)) : sProp 𝕄) = held (T d) S5 (V0 m d) := by
  rw [unscopedBufs_eq, held_S5]; rfl

omit [FloatOps F] in
theorem V1_a (d : Dev nD) : V1 m d a' = m (aLoc d) :=
  (Function.update_of_ne (show a' ≠ o' by decide) _ _).trans (Function.update_of_ne (show a' ≠ p' by decide) _ _)
omit [FloatOps F] in
theorem V1_pe (d : Dev nD) : V1 m d pe' = m (peLoc d) :=
  (Function.update_of_ne (show pe' ≠ o' by decide) _ _).trans (Function.update_of_ne (show pe' ≠ p' by decide) _ _)
omit [FloatOps F] in
theorem V1_p (d : Dev nD) : V1 m d p' = flat m d :=
  (Function.update_of_ne (show p' ≠ o' by decide) _ _).trans (Function.update_self _ _ _)
omit [FloatOps F] in
theorem V1_o (d : Dev nD) : V1 m d o' = bcast m d := Function.update_self _ _ _
omit [FloatOps F] in
theorem V1_r (d : Dev nD) : V1 m d r' = m (rLoc d) :=
  (Function.update_of_ne (show r' ≠ o' by decide) _ _).trans (Function.update_of_ne (show r' ≠ p' by decide) _ _)

/-- After the first reshape: the flattened table in place, the rest as launched. -/
theorem held_flat (d : Dev nD) :
    (held (T d) S5 ((opFlat (F := F)).result (V0 m d)) : sProp 𝕄) = iprop((aLoc d ↦{fullShare} m (aLoc d)) ∗ (peLoc d ↦{fullShare} m (peLoc d))
      ∗ (pLoc d ↦{fullShare} flat m d) ∗ (oLoc d ↦{fullShare} m (oLoc d)) ∗ rLoc d ↦{fullShare} m (rLoc d)) := by
  rw [held_S5,
    StableHlo.reshape_result_ne (x := main_arg1) (y := main_v0) _ _ _ _ (V0 m d) (r := main_arg0) (by decide),
    StableHlo.reshape_result_ne (x := main_arg1) (y := main_v0) _ _ _ _ (V0 m d) (r := main_arg1) (by decide),
    StableHlo.reshape_result_ne (x := main_arg1) (y := main_v0) _ _ _ _ (V0 m d) (r := main_v1) (by decide),
    StableHlo.reshape_result_ne (x := main_arg1) (y := main_v0) _ _ _ _ (V0 m d) (r := main_v2) (by decide),
    StableHlo.reshape_result]
  rfl

/-- After the last reshape: the result is the table repeated; the arguments as launched. -/
theorem held_tile (d : Dev nD) :
    (held (T d) S5 ((opTile (F := F)).result (V1 m d)) : sProp 𝕄) = iprop((aLoc d ↦{fullShare} m (aLoc d)) ∗ (peLoc d ↦{fullShare} m (peLoc d))
      ∗ (pLoc d ↦{fullShare} flat m d) ∗ (oLoc d ↦{fullShare} bcast m d) ∗ rLoc d ↦{fullShare} (Cert.Spec.tiled (m (peLoc d)))) := by
  rw [held_S5,
    StableHlo.reshape_result_ne (x := main_v1) (y := main_v2) _ _ _ _ (V1 m d) (r := main_arg0) (by decide),
    StableHlo.reshape_result_ne (x := main_v1) (y := main_v2) _ _ _ _ (V1 m d) (r := main_arg1) (by decide),
    StableHlo.reshape_result_ne (x := main_v1) (y := main_v2) _ _ _ _ (V1 m d) (r := main_v0) (by decide),
    StableHlo.reshape_result_ne (x := main_v1) (y := main_v2) _ _ _ _ (V1 m d) (r := main_v1) (by decide),
    StableHlo.reshape_result, V1_a, V1_pe, V1_p, V1_o, ← cast_bcast m d]
  rfl

/-- What the call takes for the two SparseCores: a read token of the flattened table each, and all rows of the result. -/
theorem st0_eq (d : Dev nD) : (bigSep Finset.univ fun c : Fin ((K (F := F)).nCore 0) => (P m).st 0 d c)
    = iprop((bigSep Finset.univ fun c : Fin 2 => pLoc d ↦{Transfers.shareTok fullShare 2 c} flat m d) ∗ (oLoc d ↦{fullShare} m (oLoc d))) := by
  show (bigSep (Finset.univ : Finset (Fin 2)) fun c => iprop((pLoc d ↦{qC c.val} flat m d) ∗ (oLoc d ↦[rowsIn (coreRows c.val)]{fullShare} m (oLoc d)))) = _
  rw [bigSep_sep', ← oPts_cores]
/-- What it hands back: the tokens, and all rows of the result holding the flattened table. -/
theorem dn0_eq (d : Dev nD) : (bigSep Finset.univ fun c : Fin ((K (F := F)).nCore 0) => (P m).dn 0 d c)
    = iprop((bigSep Finset.univ fun c : Fin 2 => pLoc d ↦{Transfers.shareTok fullShare 2 c} flat m d) ∗ (oLoc d ↦{fullShare} bcast m d)) := by
  show (bigSep (Finset.univ : Finset (Fin 2)) fun c => iprop((pLoc d ↦{qC c.val} flat m d) ∗ (oLoc d ↦[rowsIn (coreRows c.val)]{fullShare} bcast m d))) = _
  rw [bigSep_sep', ← oPts_cores]

theorem hFlat : (opFlat (F := F)).bufs ⊆ S5 := show ({pe', p'} : Finset (DevRef τ sig)) ⊆ S5 by decide
theorem hTile : (opTile (F := F)).bufs ⊆ S5 := show ({o', r'} : Finset (DevRef τ sig)) ⊆ S5 by decide

end Launch

/-- What @main leaves the claim: the arguments at their launch contents, the result the table repeated. -/
abbrev FIN (d : Dev nD) : sProp 𝕄 :=
  iprop((aLoc d ↦{fullShare} m (aLoc d)) ∗ (peLoc d ↦{fullShare} m (peLoc d)) ∗ (rLoc d ↦{fullShare} (Cert.Spec.tiled (m (peLoc d)))))

/-- @main on device `d`'s TensorCore: the table flattened, the call (a read token of the flattened table to each
    SparseCore, the remainder kept; all rows of the result out and back), the result read as 4096 x 200 x 64. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the table flattened
  iapply (wp_hlo_within 𝒱 (SparseCore.T d) none Set.univ (op := opFlat) (S := S5) hFlat (V := V0 m d)) $$ [Hb Hheld]
  · isplitl [Hb]; · iexact Hb
    iexact Hheld
  iintro ⟨Hb, Hheld⟩
  ihave Hh := (Entails.of_eq (held_flat m d)) $$ Hheld
  icases Hh with ⟨Ha, Hpe, Hp, Ho, Hr⟩
  rw [wp_ret]; imodintro
  -- the call
  ihave Hp' := (Transfers.pointsTo_toks_split fullShare 2) $$ Hp
  icases Hp' with ⟨Hrest, Htoks⟩
  iapply ((K (F := F)).wp_run (D (F := F)) 𝒱 (EH := EH) (P := P m) κ d 0) $$ [Hst Htoks Ho Hb Ha Hpe Hr Hrest]
  isplitr; · iexact Hctx
  isplitl [Hst]; · iexact Hst
  isplitl [Htoks Ho]
  · rw [st0_eq]
    isplitl [Htoks]; · iexact Htoks
    iexact Ho
  iintro ⟨Hst, Hdn⟩
  ihave Hdn' := (Entails.of_eq (dn0_eq m d)) $$ Hdn
  icases Hdn' with ⟨Htoks, Ho⟩
  ihave Hp := (Transfers.pointsTo_toks_join fullShare 2) $$ [Hrest Htoks]
  · isplitl [Hrest]; · iexact Hrest
    iexact Htoks
  -- the result read at its final shape
  iapply (wp_hlo_within 𝒱 (SparseCore.T d) none Set.univ (op := opTile) (S := S5) hTile (V := V1 m d)) $$ [Hb Ha Hpe Hp Ho Hr]
  · isplitl [Hb]; · iexact Hb
    rw [held_S5, V1_a, V1_pe, V1_p, V1_o, V1_r]
    isplitl [Ha]; · iexact Ha
    isplitl [Hpe]; · iexact Hpe
    isplitl [Hp]; · iexact Hp
    isplitl [Ho]; · iexact Ho
    iexact Hr
  iintro ⟨Hb, Hheld⟩
  ihave Hh := (Entails.of_eq (held_tile m d)) $$ Hheld
  icases Hh with ⟨Ha, Hpe, -, -, Hr⟩
  rw [wp_ret]; imodintro; imodintro
  isplitl [Hst]; · iexact Hst
  isplitl [Ha]; · iexact Ha
  isplitl [Hpe]; · iexact Hpe
  iexact Hr

namespace Launch

/-! ## The final memory, the program's run and the claim -/

def fq (d : Dev nD) (s' : Phys nD τ sig (Elt F)) : Prop :=
  s'.mem.mem (rLoc d) = Cert.Spec.tiled (m (peLoc d)) ∧ s'.mem.mem (aLoc d) = m (aLoc d) ∧ s'.mem.mem (peLoc d) = m (peLoc d)

theorem hfin (d : Dev nD) (s' : Phys nD τ sig (Elt F)) : iprop(FIN m d ∗ SI s') ⊢ (⌜fq m d s'⌝ : sProp 𝕄) := by
  iintro ⟨⟨Ha, Hpe, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := peLoc d) (I := Finset.univ) (q := fullShare) (f := m (peLoc d)))) $$ [HSI Hpe]
  · isplitl [HSI] <;> iassumption
  icases H with ⟨%h2, HSI, -⟩
  ihave H := (SI_pointsTo_agree (st := s') (ℓ := rLoc d) (I := Finset.univ) (q := fullShare) (f := Cert.Spec.tiled (m (peLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

end Launch

/-- The claim: on every device the result is the table repeated, and the two arguments are unchanged. -/
def QC : PUnit × MemSt nD τ sig (Elt F) → Prop := fun r => ∀ c : Dev nD,
  r.2.mem (rLoc c) = Cert.Spec.tiled (m (peLoc c)) ∧ r.2.mem (aLoc c) = m (aLoc c) ∧ r.2.mem (peLoc c) = m (peLoc c)

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KBRowsDef.lean ====
/-
  A vector subcore's 128 rows, one assertion each: row `k` of its block is held through the memref the
  kernel itself slices for it, so that the kernel's copy into that row finds it. The block is the chain
  of its rows. `rowOf fp` is the result a row holds once the flattened table `fp` has been copied into
  it: at column `j`, `fp` at `j`.
-/
import proofs.«213661_g87797721464909_cont_9to1_m_233_16_alg».proof.Proof.KBCommon
import proofs.«213661_g87797721464909_cont_9to1_m_233_16_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Rows

variable (d : Dev nD) (L : grid0.Coords)

/-- Row `k` of the block of vector subcore `L`, held by exactly its own elements at contents `f`. -/
abbrev rowPts (k : Fin 128) (f : Buf (Elt F) (oLoc d)) : sProp 𝕄 :=
  (rowM L k).view.loc (V d (cV L) (jV L)) ↦[(rowM L k).view.set]{fullShare} f

/-- The 128 rows, in order. -/
def rowsChain (f : Buf (Elt F) (oLoc d)) : sProp 𝕄 :=
  iprop(rowPts (F := F) d L 0 f ∗ rowPts (F := F) d L 1 f ∗ rowPts (F := F) d L 2 f ∗ rowPts (F := F) d L 3 f ∗ rowPts (F := F) d L 4 f ∗ rowPts (F := F) d L 5 f ∗ rowPts (F := F) d L 6 f ∗ rowPts (F := F) d L 7 f ∗ rowPts (F := F) d L 8 f ∗ rowPts (F := F) d L 9 f ∗ rowPts (F := F) d L 10 f ∗ rowPts (F := F) d L 11 f ∗ rowPts (F := F) d L 12 f ∗ rowPts (F := F) d L 13 f ∗ rowPts (F := F) d L 14 f ∗ rowPts (F := F) d L 15 f ∗ rowPts (F := F) d L 16 f ∗ rowPts (F := F) d L 17 f ∗ rowPts (F := F) d L 18 f ∗ rowPts (F := F) d L 19 f ∗ rowPts (F := F) d L 20 f ∗ rowPts (F := F) d L 21 f ∗ rowPts (F := F) d L 22 f ∗ rowPts (F := F) d L 23 f ∗ rowPts (F := F) d L 24 f ∗ rowPts (F := F) d L 25 f ∗ rowPts (F := F) d L 26 f ∗ rowPts (F := F) d L 27 f ∗ rowPts (F := F) d L 28 f ∗ rowPts (F := F) d L 29 f ∗ rowPts (F := F) d L 30 f ∗ rowPts (F := F) d L 31 f ∗ rowPts (F := F) d L 32 f ∗ rowPts (F := F) d L 33 f ∗ rowPts (F := F) d L 34 f ∗ rowPts (F := F) d L 35 f ∗ rowPts (F := F) d L 36 f ∗ rowPts (F := F) d L 37 f ∗ rowPts (F := F) d L 38 f ∗ rowPts (F := F) d L 39 f ∗ rowPts (F := F) d L 40 f ∗ rowPts (F := F) d L 41 f ∗ rowPts (F := F) d L 42 f ∗ rowPts (F := F) d L 43 f ∗ rowPts (F := F) d L 44 f ∗ rowPts (F := F) d L 45 f ∗ rowPts (F := F) d L 46 f ∗ rowPts (F := F) d L 47 f ∗ rowPts (F := F) d L 48 f ∗ rowPts (F := F) d L 49 f ∗ rowPts (F := F) d L 50 f ∗ rowPts (F := F) d L 51 f ∗ rowPts (F := F) d L 52 f ∗ rowPts (F := F) d L 53 f ∗ rowPts (F := F) d L 54 f ∗ rowPts (F := F) d L 55 f ∗ rowPts (F := F) d L 56 f ∗ rowPts (F := F) d L 57 f ∗ rowPts (F := F) d L 58 f ∗ rowPts (F := F) d L 59 f ∗ rowPts (F := F) d L 60 f ∗ rowPts (F := F) d L 61 f ∗ rowPts (F := F) d L 62 f ∗ rowPts (F := F) d L 63 f ∗ rowPts (F := F) d L 64 f ∗ rowPts (F := F) d L 65 f ∗ rowPts (F := F) d L 66 f ∗ rowPts (F := F) d L 67 f ∗ rowPts (F := F) d L 68 f ∗ rowPts (F := F) d L 69 f ∗ rowPts (F := F) d L 70 f ∗ rowPts (F := F) d L 71 f ∗ rowPts (F := F) d L 72 f ∗ rowPts (F := F) d L 73 f ∗ rowPts (F := F) d L 74 f ∗ rowPts (F := F) d L 75 f ∗ rowPts (F := F) d L 76 f ∗ rowPts (F := F) d L 77 f ∗ rowPts (F := F) d L 78 f ∗ rowPts (F := F) d L 79 f ∗ rowPts (F := F) d L 80 f ∗ rowPts (F := F) d L 81 f ∗ rowPts (F := F) d L 82 f ∗ rowPts (F := F) d L 83 f ∗ rowPts (F := F) d L 84 f ∗ rowPts (F := F) d L 85 f ∗ rowPts (F := F) d L 86 f ∗ rowPts (F := F) d L 87 f ∗ rowPts (F := F) d L 88 f ∗ rowPts (F := F) d L 89 f ∗ rowPts (F := F) d L 90 f ∗ rowPts (F := F) d L 91 f ∗ rowPts (F := F) d L 92 f ∗ rowPts (F := F) d L 93 f ∗ rowPts (F := F) d L 94 f ∗ rowPts (F := F) d L 95 f ∗ rowPts (F := F) d L 96 f ∗ rowPts (F := F) d L 97 f ∗ rowPts (F := F) d L 98 f ∗ rowPts (F := F) d L 99 f ∗ rowPts (F := F) d L 100 f ∗ rowPts (F := F) d L 101 f ∗ rowPts (F := F) d L 102 f ∗ rowPts (F := F) d L 103 f ∗ rowPts (F := F) d L 104 f ∗ rowPts (F := F) d L 105 f ∗ rowPts (F := F) d L 106 f ∗ rowPts (F := F) d L 107 f ∗ rowPts (F := F) d L 108 f ∗ rowPts (F := F) d L 109 f ∗ rowPts (F := F) d L 110 f ∗ rowPts (F := F) d L 111 f ∗ rowPts (F := F) d L 112 f ∗ rowPts (F := F) d L 113 f ∗ rowPts (F := F) d L 114 f ∗ rowPts (F := F) d L 115 f ∗ rowPts (F := F) d L 116 f ∗ rowPts (F := F) d L 117 f ∗ rowPts (F := F) d L 118 f ∗ rowPts (F := F) d L 119 f ∗ rowPts (F := F) d L 120 f ∗ rowPts (F := F) d L 121 f ∗ rowPts (F := F) d L 122 f ∗ rowPts (F := F) d L 123 f ∗ rowPts (F := F) d L 124 f ∗ rowPts (F := F) d L 125 f ∗ rowPts (F := F) d L 126 f ∗ rowPts (F := F) d L 127 f)

/-- Every row of the result holding the one-row array `fp`. -/
def rowOf (fp : Buf (Elt F) (pLoc d)) : Buf (Elt F) (oLoc d) :=
  fun i => fp (ValueIdx.ix2 (n0 := 1) (n1 := 12800) 0 (i 1))

variable (m : (ℓ : Loc nD τ sig) → Buf (Elt F) ℓ)

theorem rowOf_flat : rowOf d (flat m d) = bcast m d := rfl

end Rows

end Cert.Proof.KB

end
-- ==== Proof.KBFold.lean ====
/-
  The vector subcore's body as a list of steps, and the two runs of steps proved by induction. After the
  scratch has been filled with the flattened table, the body starts 128 copies of the scratch, copy `k`
  into row `k` of the subcore's block, all completing on one semaphore, and then waits 128 times for one
  row's worth of that semaphore. While the copies are in flight nothing is known of any row: only the
  wait that brings the count consumed to 128 rows' worth returns every row, written, and every read
  share of the scratch. The copies read one scratch: each borrows its own read share of it.
-/
import proofs.«213661_g87797721464909_cont_9to1_m_233_16_alg».proof.Proof.KBCommon
import proofs.«213661_g87797721464909_cont_9to1_m_233_16_alg».proof.Proof.KBRowsDef

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Fold

variable [FloatOps F] (L : grid0.Coords)

abbrev Thr (L : grid0.Coords) : Proc τ := .scVector ((L 0).castLE hcore0) ((L 1).castLE hsub0)

/-- Copy `k`: the scratch row into row `k` of the block, started on the output semaphore. -/
def issueP (k : Fin 128) : Prog (TpuEff nD τ sig (Elt F) Λ₀ (Thr L)) PUnit :=
  Prog.lift (.enqueueDma sW (.here (rowM L k)) (.dma cc0_scratch1.sem) (Memref.isWhole_whole _).wordExact (View.wordExact_bits rfl) ⟨Or.inl rfl, trivial⟩)

/-- A wait for one row's worth of the output semaphore (the row it names only sizes the wait). -/
def waitP (k : Fin 128) : Prog (TpuEff nD τ sig (Elt F) Λ₀ (Thr L)) PUnit :=
  Prog.lift (.waitDma2 cc0_scratch1.sem sW (rowM L k) (Memref.isWhole_whole _).wordExact (View.wordExact_bits rfl))

/-- Steps one after the other. -/
def seqP {κ : Proc τ} : List (Prog (TpuEff nD τ sig (Elt F) Λ₀ κ) PUnit) → Prog (TpuEff nD τ sig (Elt F) Λ₀ κ) PUnit
  | [] => pure ⟨⟩
  | p :: ps => p >>= fun _ => seqP ps

/-- Copies `j, j + 1, …`, `n` of them. -/
def issuesFrom (j : ℕ) : ℕ → List (Prog (TpuEff nD τ sig (Elt F) Λ₀ (Thr L)) PUnit)
  | 0 => []
  | n + 1 => (if h : j < 128 then issueP (F := F) L ⟨j, h⟩ else pure ⟨⟩) :: issuesFrom (j + 1) n

/-- Waits `j, j + 1, …`, `n` of them. -/
def waitsFrom (j : ℕ) : ℕ → List (Prog (TpuEff nD τ sig (Elt F) Λ₀ (Thr L)) PUnit)
  | 0 => []
  | n + 1 => (if h : j < 128 then waitP (F := F) L ⟨j, h⟩ else pure ⟨⟩) :: waitsFrom (j + 1) n

/-- The table's one row and the scratch's one row, as the first copy slices them. -/
abbrev pRow : Memref sig .scVector .hbm S12800 .f32 :=
  ((pW).slice (Rect.unit (s := S1x12800) ![0, 0] S1x12800.size Facts₀.inb_S1x12800_S1x12800_0_0) (fun _ => rfl)).squeeze S12800 Facts₀.squeezes_S1x12800_S12800
abbrev sRow : Memref sig .scVector .vmem S12800 .f32 :=
  ((sW).slice (Rect.unit (s := S1x12800) ![0, 0] S1x12800.size Facts₀.inb_S1x12800_S1x12800_0_0) (fun _ => rfl)).squeeze S12800 Facts₀.squeezes_S1x12800_S12800

/-- The steps after the scratch is filled. -/
def tailP : Prog (TpuEff nD τ sig (Elt F) Λ₀ (Thr L)) PUnit :=
  seqP (issuesFrom (F := F) L 0 128 ++ (waitsFrom (F := F) L 0 127 ++ [waitP (F := F) L 127]))

/-- The body: fill the scratch (a copy and its wait on a semaphore of their own), then the steps. -/
def bodyP : Prog (TpuEff nD τ sig (Elt F) Λ₀ (Thr L)) PUnit := do
  Prog.lift (.enqueueDma pRow (.here sRow) (.dma cc0_scoped0.sem) ((View.wordExact_bits rfl).reshape _ _) ((View.wordExact_bits rfl).reshape _ _) ⟨Or.inl rfl, trivial⟩)
  Prog.lift (.waitDma2 cc0_scoped0.sem pRow sRow ((View.wordExact_bits rfl).reshape _ _) ((View.wordExact_bits rfl).reshape _ _))
  tailP (F := F) L

set_option maxRecDepth 1000000 in
/-- The printed body is that list of steps: the printed text unrolls it. -/
theorem body_eq :
    cc0_sc_bcast (F := F) L pW (Memref.isWhole_whole _) oW (Memref.isWhole_whole _) sW (Memref.isWhole_whole _) cc0_scratch1 cc0_scoped0 = bodyP (F := F) L := by
  rfl

end Fold

/-! ## The two runs -/

section Runs

variable [FloatOps F] (d : Dev nD) (L : grid0.Coords)

/-- The counters' copy in the certificate's algebra. -/
abbrev EC : UEmb Counters (MT nD τ sig (HIx 1) (Elt F) ℕ UU ℕ) := countersEmb (U := UU)

/-- One row's worth of the output semaphore. -/
abbrev NR : ℕ := (rowM L 0).view.amount (SemLoc.dma (sig := sig) cc0_scratch1.sem)

theorem NR_pos : 0 < NR L := View.amount_pos _ _ (show 0 < S1x12800.numel by decide)

/-- The scratch's read share lent to copy `k`. -/
abbrev tokS (k : Fin 128) (fs : Buf (Elt F) ((sW).view.loc (V d (cV L) (jV L)))) : sProp 𝕄 :=
  (sW).view.loc (V d (cV L) (jV L)) ↦[(sW).view.set]{Transfers.shareTok fullShare 128 k} fs

/-- What copy `k` delivers: row `k` written with the scratch's contents, and its read share of the scratch back. -/
def deliv (fo : Buf (Elt F) (oLoc d)) (fs : Buf (Elt F) ((sW).view.loc (V d (cV L) (jV L)))) (k : Fin 128) : sProp 𝕄 :=
  iprop(rowPts (F := F) d L k ((rowM L k).view.write (Elt F) fo (ReadAs.same.apply ((sW).view.read (Elt F) fs)) Finset.univ) ∗ tokS (F := F) d L k fs)

instance deliv_storable (fo : Buf (Elt F) (oLoc d)) (fs : Buf (Elt F) ((sW).view.loc (V d (cV L) (jV L)))) (k : Fin 128) :
    BI.Storable (upEmb : UEmb _ 𝕄) (deliv (F := F) d L fo fs k) := by
  unfold deliv; infer_instance

local notation "thr" => V d (cV L) (jV L)
local notation "smO" => SemLoc.dma (sig := sig) cc0_scratch1.sem
local notation "WP" => wp frame (wpE (defs₀ (F := F)) 𝒱₀ (V d (cV L) (jV L)) none) Set.univ

/-- The copies `j … 127`: from the rows and read shares not yet used, to all 128 in flight. -/
theorem issue_phase (fo : Buf (Elt F) (oLoc d)) (fs : Buf (Elt F) ((sW).view.loc thr))
    (tl : List (Prog (TpuEff nD τ sig (Elt F) Λ₀ (Thr L)) PUnit)) (Q : PUnit → sProp 𝕄) :
    ∀ (n j : ℕ), j + n = 128 →
      iprop(Transfers.Batch (EC (F := F)) thr smO none (NR L) (deliv (F := F) d L fo fs) j 0
          ∗ bigSep (Transfers.pending (n := 128) j) (fun k => rowPts (F := F) d L k fo)
          ∗ bigSep (Transfers.pending (n := 128) j) (fun k => tokS (F := F) d L k fs)
          ∗ (Transfers.Batch (EC (F := F)) thr smO none (NR L) (deliv (F := F) d L fo fs) 128 0 -∗ WP (seqP tl) Q))
        ⊢ WP (seqP (issuesFrom (F := F) L j n ++ tl)) Q := by
  intro n
  induction n with
  | zero =>
    intro j hj
    obtain rfl : j = 128 := by omega
    iintro ⟨HB, -, -, Hk⟩
    iapply Hk; iexact HB
  | succ n ih =>
    intro j hj
    have hj' : j < 128 := by omega
    rw [Transfers.bigSep_pending_step _ j hj', Transfers.bigSep_pending_step _ j hj']
    simp only [issuesFrom, dif_pos hj', List.cons_append]
    show _ ⊢ WP (issueP (F := F) L ⟨j, hj'⟩ >>= fun _ => seqP (issuesFrom (F := F) L (j + 1) n ++ tl)) Q
    unfold issueP
    simp only [Prog.lift, Prog.bind_op, Prog.bind_ret]
    iintro ⟨HB, ⟨Hrow, Hrows⟩, ⟨Htok, Htoks⟩, Hk⟩
    iapply (Transfers.wp_dmaBatch (EC (F := F)) 𝒱₀ thr none (src := sW) (dst := rowM L ⟨j, hj'⟩) (D := deliv (F := F) d L fo fs)
        (j := j) (u := 0) none (NR L) rfl subset_rfl hj' (Nat.zero_le _) (by unfold deliv; exact .rfl)) $$ [Htok Hrow HB]
    · isplitl [Htok]; · iexact Htok
      isplitl [Hrow]; · iexact Hrow
      iexact HB
    iintro HB
    iapply (ih (j + 1) (by omega))
    isplitl [HB]; · iexact HB
    isplitl [Hrows]; · iexact Hrows
    isplitl [Htoks]; · iexact Htoks
    iexact Hk

end Runs

end Cert.Proof.KB

end
-- ==== Proof.KBRows.lean ====
/-
  The 128 rows of a vector subcore's block, one by one. Row `k` of the block of subcore `s` of SparseCore
  `c` is row number `256 s + 128 c + k` of the 4096 x 12800 result, all its 12800 columns: the element set
  of the memref the kernel slices for it is exactly that. The block is the disjoint union of its 128 rows.
  A copy of a one-row array into such a row leaves, at column `j` of the row, the array's column `j`; and
  the scratch, filled from the flattened table through the whole-row slice read as 12800 numbers, reads
  back as the flattened table.
-/
import proofs.«213661_g87797721464909_cont_9to1_m_233_16_alg».proof.Proof.KBRowsDef
import proofs.«213661_g87797721464909_cont_9to1_m_233_16_alg».proof.Proof.KBLaunchSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

namespace Rows

/-! ## A row's element set -/

/-- The elements of row `k` of the block: every index of the result whose row number is `256 s + 128 c + k`. -/
theorem set_rowM (L : grid0.Coords) (k : Fin 128) :
    (rowM L k).view.set = rowsIn {256 * (L 1).val + 128 * (L 0).val + k.val} := by
  show ((View.whole (main_v1_scv : Ref sig .scVector)).slice
      (Rect.unit (s := S4096x12800) (k0_off1 L (BitVec.ofNat 32 k.val)) S1x12800.size (k0_off1_inb L k))).set = _
  rw [View.set_slice_whole]
  ext i
  rw [Rect.mem_set_unit, mem_rowsIn, Finset.mem_singleton, k0_off1_eq L k]
  show (∀ a : Fin 2, (![256 * (L 1).val + 128 * (L 0).val + k.val, 0] : Fin 2 → ℕ) a ≤ (i a).val
      ∧ (i a).val < (![256 * (L 1).val + 128 * (L 0).val + k.val, 0] : Fin 2 → ℕ) a + (![1, 12800] : Fin 2 → ℕ) a) ↔ _
  rw [Fin.forall_fin_two]
  have h1 : (i 1).val < 12800 := (i 1).isLt
  show ((256 * (L 1).val + 128 * (L 0).val + k.val ≤ (i 0).val ∧ (i 0).val < 256 * (L 1).val + 128 * (L 0).val + k.val + 1)
      ∧ (0 ≤ (i 1).val ∧ (i 1).val < 0 + 12800)) ↔ (i 0).val = 256 * (L 1).val + 128 * (L 0).val + k.val
  omega

/-- Different rows of a block do not meet, -/
theorem rows_disjoint (L : grid0.Coords) : ∀ k ∈ (Finset.univ : Finset (Fin 128)), ∀ k' ∈ (Finset.univ : Finset (Fin 128)), k ≠ k' →
    Disjoint (rowM L k).view.set (rowM L k').view.set := by
  intro k _ k' _ h
  rw [set_rowM, set_rowM]
  exact Launch.rowsIn_disjoint (Finset.disjoint_singleton.mpr (by have := Fin.val_ne_of_ne h; omega))

/-- and together they are the block of worker `2 s + c`. -/
theorem rows_cover (L : grid0.Coords) :
    rowsIn (blockRows (2 * (L 1).val + (L 0).val)) = (Finset.univ : Finset (Fin 128)).biUnion fun k => (rowM L k).view.set := by
  ext i
  rw [mem_rowsIn, Launch.mem_blockRows, Finset.mem_biUnion]
  constructor
  · rintro ⟨h1, h2⟩
    refine ⟨⟨(i 0).val - 128 * (2 * (L 1).val + (L 0).val), by omega⟩, Finset.mem_univ _, ?_⟩
    rw [set_rowM, mem_rowsIn, Finset.mem_singleton]
    show (i 0).val = 256 * (L 1).val + 128 * (L 0).val + ((i 0).val - 128 * (2 * (L 1).val + (L 0).val))
    omega
  · rintro ⟨k, -, hk⟩
    rw [set_rowM, mem_rowsIn, Finset.mem_singleton] at hk
    have := k.isLt
    omega

end Rows

open Rows

/-- The block of worker `2 s + c`, held whole, is its 128 rows, each held through the memref the kernel slices for it. -/
theorem block_rows_big (d : Dev nD) (L : grid0.Coords) (f : Buf (Elt F) (oLoc d)) :
    (oLoc d ↦[rowsIn (blockRows (2 * (L 1).val + (L 0).val))]{fullShare} f : sProp 𝕄) = bigSep Finset.univ (fun k : Fin 128 => rowPts (F := F) d L k f) := by
  rw [rows_cover, pointsTo_biUnion Finset.univ (ℓ := oLoc d) (fun k : Fin 128 => (rowM L k).view.set) (rows_disjoint L)] <;> rfl

/-- The same as the chain of the 128 rows in order. -/
theorem block_rows (d : Dev nD) (L : grid0.Coords) (f : Buf (Elt F) (oLoc d)) :
    (oLoc d ↦[rowsIn (blockRows (2 * (L 1).val + (L 0).val))]{fullShare} f : sProp 𝕄) = rowsChain d L f := by
  rw [block_rows_big, bigSep_univ_eq_bigSepL rows128 (by decide) (by decide)]
  unfold rowsChain
  rfl

/-! ## A row after the copy of a one-row array into it -/

namespace Rows

/-- The row's memref keeps the column: element `x` of the row sits at column `x 1` of the result. -/
theorem emb_rowM_col (L : grid0.Coords) (k : Fin 128) (x : S1x12800.Idx) : (((rowM L k).view.emb x) 1).val = (x 1).val := by
  show (k0_off1 L (BitVec.ofNat 32 k.val)) 1 + 1 * (x 1).val = (x 1).val
  rw [k0_off1_eq L k]
  show 0 + 1 * (x 1).val = (x 1).val
  omega

/-- A view written whole with payload `w` holds, at the place of its element `x`, the payload at `x`. -/
theorem writes_whole_emb {κ : Kind} {sp : Space} {s : Shape} {e : EltTy} (v : View sig κ sp s e) (f : v.ty.Contents (Elt F))
    (w : s.Idx → Elt F e) (x : s.Idx) :
    v.writes (Elt F) f [⟨Rect.whole s, w⟩] (v.emb x) = cast (congrArg (Elt F) v.elt_eq.symm) (w x) := by
  rw [← View.write_univ_eq_writes_whole v f [] w, View.writes_nil]
  exact View.write_emb_of_mem f w (Finset.mem_univ x)

end Rows

/-- The row written whole with a payload that is the one-row array `fp` holds, on its own elements, what
    `rowOf d fp` holds there: column `j` of the row is `fp` at `j`. -/
theorem row_written (d : Dev nD) (L : grid0.Coords) (k : Fin 128) (fo : Buf (Elt F) (oLoc d)) (fp : Buf (Elt F) (pLoc d))
    (w : S1x12800.Idx → Elt F .f32) (hw : ∀ x, w x = fp x) :
    rowPts (F := F) d L k ((rowM L k).view.writes (Elt F) fo [⟨Rect.whole S1x12800, w⟩]) = rowPts (F := F) d L k (rowOf d fp) := by
  refine pointsTo_congr fun i hi => ?_
  obtain ⟨x, -, rfl⟩ := Finset.mem_map.mp hi
  refine (writes_whole_emb (rowM L k).view fo w x).trans ((cast_eq _ (w x)).trans ((hw x).trans ?_))
  show fp x = fp (ix2 (n0 := 1) (n1 := 12800) 0 (((rowM L k).view.emb x) 1))
  refine congrArg fp (funext fun a => ?_)
  match a with
  | ⟨0, _⟩ => exact Fin.ext (by have h0 : (x 0).val < 1 := (x 0).isLt; show (x 0).val = 0; omega)
  | ⟨1, _⟩ => exact Fin.ext (emb_rowM_col L k x).symm

/-! ## The scratch after the first copy, read whole -/

/-- The first copy reads the flattened table through the whole-row slice taken as 12800 numbers and writes the
    scratch through the same slice of the scratch: both cover their one-row buffers and place element `y` at the
    same index, so the scratch read whole is the flattened table. -/
theorem payload_eq (d : Dev nD) (L : grid0.Coords) (fp : Buf (Elt F) (pLoc d)) (fs : Buf (Elt F) ((sW).view.loc (V d (cV L) (jV L)))) (x : S1x12800.Idx) :
    ReadAs.same.apply (View.read (Elt F) sW.view (View.write (Elt F) ((sW.slice (Rect.unit (s := S1x12800) ![0, 0] S1x12800.size Facts₀.inb_S1x12800_S1x12800_0_0) (fun _ => rfl)).squeeze S12800 Facts₀.squeezes_S1x12800_S12800).view fs
        (ReadAs.same.apply (View.read (Elt F) ((pW.slice (Rect.unit (s := S1x12800) ![0, 0] S1x12800.size Facts₀.inb_S1x12800_S1x12800_0_0) (fun _ => rfl)).squeeze S12800 Facts₀.squeezes_S1x12800_S12800).view fp)) Finset.univ)) x = fp x := by
  have hx : x ∈ ((sW.slice (Rect.unit (s := S1x12800) ![0, 0] S1x12800.size Facts₀.inb_S1x12800_S1x12800_0_0) (fun _ => rfl)).squeeze S12800 Facts₀.squeezes_S1x12800_S12800).view.set := by
    rw [show ((sW.slice (Rect.unit (s := S1x12800) ![0, 0] S1x12800.size Facts₀.inb_S1x12800_S1x12800_0_0) (fun _ => rfl)).squeeze S12800 Facts₀.squeezes_S1x12800_S12800).view.set
        = ((View.whole (cc0_scratch0 : Ref sig .scVector)).slice (Rect.unit (s := S1x12800) ![0, 0] S1x12800.size Facts₀.inb_S1x12800_S1x12800_0_0)).set from View.set_reshape _ _,
      View.set_slice_whole]
    refine Rect.mem_set_unit.mpr ?_
    show ∀ a : Fin 2, (![0, 0] : Fin 2 → ℕ) a ≤ (x a).val ∧ (x a).val < (![0, 0] : Fin 2 → ℕ) a + (![1, 12800] : Fin 2 → ℕ) a
    rw [Fin.forall_fin_two]
    have h0 : (x 0).val < 1 := (x 0).isLt
    have h1 : (x 1).val < 12800 := (x 1).isLt
    exact ⟨⟨Nat.zero_le _, by show (x 0).val < 0 + 1; omega⟩, ⟨Nat.zero_le _, by show (x 1).val < 0 + 12800; omega⟩⟩
  obtain ⟨y, -, rfl⟩ := Finset.mem_map.mp hx
  exact View.write_emb_of_mem (v := ((sW.slice (Rect.unit (s := S1x12800) ![0, 0] S1x12800.size Facts₀.inb_S1x12800_S1x12800_0_0) (fun _ => rfl)).squeeze S12800 Facts₀.squeezes_S1x12800_S12800).view) fs
    (ReadAs.same.apply (View.read (Elt F) ((pW.slice (Rect.unit (s := S1x12800) ![0, 0] S1x12800.size Facts₀.inb_S1x12800_S1x12800_0_0) (fun _ => rfl)).squeeze S12800 Facts₀.squeezes_S1x12800_S12800).view fp))
    (Finset.mem_univ y)

end Cert.Proof.KB

end
-- ==== Proof.KBTile.lean ====
/-
  A vector subcore's task, proved: its scratch filled with the flattened table, its 128 rows written
  with the scratch and handed back, its scoped storage and semaphores as they were.
-/
import proofs.«213661_g87797721464909_cont_9to1_m_233_16_alg».proof.Proof.KBCommon
import proofs.«213661_g87797721464909_cont_9to1_m_233_16_alg».proof.Proof.KBFold
import proofs.«213661_g87797721464909_cont_9to1_m_233_16_alg».proof.Proof.KBRows

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Waits

variable [FloatOps F] (d : Dev nD) (L : grid0.Coords)

local notation "tV" => V d (cV L) (jV L)
local notation "smO" => SemLoc.dma (sig := sig) cc0_scratch1.sem
local notation "WP" => wp frame (wpE (defs₀ (F := F)) 𝒱₀ (V d (cV L) (jV L)) none) Set.univ

/-- A wait recorded `n` times over. -/
def insN (x : SemLoc sig × HIx 1) : ℕ → Waits sig (HIx 1) → Waits sig (HIx 1)
  | 0, W => W
  | n + 1, W => insN x n (insert x W)

omit [FloatOps F] in
theorem mem_insN {x : SemLoc sig × HIx 1} : ∀ (n : ℕ) (W : Waits sig (HIx 1)) (p : SemLoc sig × HIx 1), p ∈ insN x n W → p ∈ W ∨ p = x := by
  intro n
  induction n with
  | zero => intro W p h; exact .inl h
  | succ n ih =>
    intro W p h
    rcases ih (insert x W) p h with h | h
    · rcases Finset.mem_insert.mp h with h | h
      · exact .inr h
      · exact .inl h
    · exact .inr h

/-- The waits `j … 126`: each consumes one row's worth and returns nothing. -/
theorem wait_phase (fo : Buf (Elt F) (oLoc d)) (fs : Buf (Elt F) ((sW).view.loc tV)) (O : CellTallies nD τ sig (HIx 1))
    (tl : List (Prog (TpuEff nD τ sig (Elt F) Λ₀ (Thr L)) PUnit)) (Q : PUnit → sProp 𝕄) :
    ∀ (n j : ℕ) (W : Waits sig (HIx 1)), j + n = 127 →
      iprop(Transfers.MayWaits tV (none : HIx 1) O
          ∗ Transfers.Batch (EC (F := F)) tV smO none (NR L) (deliv (F := F) d L fo fs) 128 (j * NR L) ∗ owes tV O W
          ∗ (iprop(Transfers.Batch (EC (F := F)) tV smO none (NR L) (deliv (F := F) d L fo fs) 128 (127 * NR L) ∗ owes tV O (insN (smO, none) n W))
              -∗ WP (seqP tl) Q))
        ⊢ WP (seqP (waitsFrom (F := F) L j n ++ tl)) Q := by
  intro n
  induction n with
  | zero =>
    intro j W hj
    obtain rfl : j = 127 := by omega
    iintro ⟨-, HB, HO, Hk⟩
    iapply Hk
    isplitl [HB]; · iexact HB
    iexact HO
  | succ n ih =>
    intro j W hj
    have hj' : j < 128 := by omega
    have hu : j * NR L + NR L < NR L * 128 := by
      have := NR_pos L
      nlinarith
    simp only [waitsFrom, dif_pos hj', List.cons_append]
    show _ ⊢ WP (waitP (F := F) L ⟨j, hj'⟩ >>= fun _ => seqP (waitsFrom (F := F) L (j + 1) n ++ tl)) Q
    unfold waitP
    simp only [Prog.lift, Prog.bind_op, Prog.bind_ret]
    iintro ⟨#Hmw, HB, HO, Hk⟩
    ihave Hm1 := (Transfers.MayWaits.elim (c := tV) (ι := (none : HIx 1)) (O := O) smO) $$ Hmw
    iapply (Transfers.wp_waitBatchO (EC (F := F)) 𝒱₀ tV none (srcw := sW) (dstw := rowM L ⟨j, hj'⟩) none (N := NR L) rfl
        (D := deliv (F := F) d L fo fs) (u := j * NR L) hu (O := O) (W := W)) $$ [HB HO Hm1]
    · isplitl [HB]; · iexact HB
      isplitl [HO]; · iexact HO
      iexact Hm1
    iintro ⟨HB, HO⟩
    iapply (ih (j + 1) (insert (smO, none) W) (by omega))
    isplitr; · iexact Hmw
    isplitl [HB]; · rw [Nat.succ_mul]; iexact HB
    isplitl [HO]; · iexact HO
    iexact Hk

end Waits

section Tile

variable (d : Dev nD) (L : grid0.Coords)

abbrev cSync (d : Dev nD) (c : Fin τ.nSC) (i : Fin τ.nSub) : GSem nD τ sig := (V d c i, .dma cc0_scoped0.sem)
abbrev cOut (d : Dev nD) (c : Fin τ.nSC) (i : Fin τ.nSub) : GSem nD τ sig := (V d c i, .dma cc0_scratch1.sem)

theorem ownSems0_V :
    (ownSems0 (V d (cV L) (jV L)) : sProp 𝕄)
      = iprop(semVal (cSync d (cV L) (jV L)) 0 ∗ semVal (cOut d (cV L) (jV L)) 0
          ∗ bigSep (((ownCells (V d (cV L) (jV L))).erase (cSync d (cV L) (jV L))).erase (cOut d (cV L) (jV L))) fun g => semVal g 0) := by
  unfold SparseCore.Cfg.ownSems0
  rw [SparseCore.bigSep_erase' ((mem_ownCells (g := cSync d (cV L) (jV L))).mpr ⟨rfl, by
      show (SemLoc.dma cc0_scoped0.sem : SemLoc sig).isScoped .scVector = true; decide⟩),
    SparseCore.bigSep_erase' (Finset.mem_erase.mpr ⟨by simp [cSync, cOut]; decide, (mem_ownCells (g := cOut d (cV L) (jV L))).mpr ⟨rfl, by
      show (SemLoc.dma cc0_scratch1.sem : SemLoc sig).isScoped .scVector = true; decide⟩⟩)]

theorem ownBufs_V :
    (ownBufs (V d (cV L) (jV L)) : sProp 𝕄)
      = iprop((∃ f, (sW).view.loc (V d (cV L) (jV L)) ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

theorem pts_s_set (q : PosShare TreeShare) (f : Buf (Elt F) ((sW).view.loc (V d (cV L) (jV L)))) :
    ((sW).view.loc (V d (cV L) (jV L)) ↦[(sW).view.set]{q} f : sProp 𝕄) = ((sW).view.loc (V d (cV L) (jV L)) ↦{q} f) := by
  simp only [Memref.view_whole, View.set_whole]

variable [FloatOps F]

local notation "tV" => V d (cV L) (jV L)
local notation "smO" => SemLoc.dma (sig := sig) cc0_scratch1.sem
local notation "WP" => wp frame (wpE (defs₀ (F := F)) 𝒱₀ (V d (cV L) (jV L)) none) Set.univ

/-- All 128 deliveries: the rows written, and the read shares of the scratch. -/
theorem deliv_all (fo : Buf (Elt F) (oLoc d)) (fs : Buf (Elt F) ((sW).view.loc tV)) :
    bigSep Finset.univ (deliv (F := F) d L fo fs)
      = iprop(bigSep Finset.univ (fun k : Fin 128 => rowPts (F := F) d L k ((rowM L k).view.write (Elt F) fo (ReadAs.same.apply ((sW).view.read (Elt F) fs)) Finset.univ))
          ∗ bigSep Finset.univ (fun k : Fin 128 => tokS (F := F) d L k fs)) := by
  unfold deliv; rw [bigSep_sep']

/-- A row written whole with a payload that is the one-row array `fp` holds `fp` at every column. -/
theorem row_done (k : Fin 128) (fo : Buf (Elt F) (oLoc d)) (fp : Buf (Elt F) (pLoc d)) (w : S1x12800.Idx → Elt F .f32) (hw : ∀ x, w x = fp x) :
    rowPts (F := F) d L k ((rowM L k).view.write (Elt F) fo w Finset.univ) = rowPts (F := F) d L k (rowOf d fp) := by
  rw [show (rowM L k).view.write (Elt F) fo w Finset.univ = (rowM L k).view.writes (Elt F) fo [⟨Rect.whole S1x12800, w⟩] from
    View.write_univ_eq_writes_whole (rowM L k).view fo [] w]
  exact row_written d L k fo fp w hw

theorem tile_body (hF : (K (F := F)).Facts) (O : CellTallies nD τ sig (HIx 1)) (W : Waits sig (HIx 1)) (hO : ∀ g, O g none = 0)
    (q : PosShare TreeShare) (fp : Buf (Elt F) (pLoc d)) (fo : Buf (Elt F) (oLoc d)) :
    iprop(levAts (K (F := F)).L (K (F := F)).lev ∗ emp
        ∗ (((pW).view.loc tV ↦{q} fp) ∗ bigSep Finset.univ (fun k : Fin 128 => rowPts (F := F) d L k fo))
        ∗ scopedBufs tV ∗ scopedSems0 tV ∗ owes tV O W)
      ⊢ WP (cc0_sc_bcast L pW (Memref.isWhole_whole _) oW (Memref.isWhole_whole _) sW (Memref.isWhole_whole _) cc0_scratch1 cc0_scoped0)
          fun _ => iprop((((pW).view.loc tV ↦{q} fp) ∗ bigSep Finset.univ (fun k : Fin 128 => rowPts (F := F) d L k (rowOf d fp)))
            ∗ scopedBufs tV ∗ scopedSems0 tV ∗ ∃ W', ⌜∀ p ∈ W', p ∈ W ∨ p.2 = none⌝ ∗ owes tV O W') := by
  rw [body_eq]; unfold bodyP
  rw [(K (F := F)).scopedBufs_V hF d (cV L) (jV L), SparseCore.Cfg.scopedSems0_V (Val := Elt F) d (cV L) (jV L), ownSems0_V, ownBufs_V]
  iintro ⟨#Hlv, -, ⟨Hp, Hrows⟩, ⟨⟨%fs, Hs⟩, Hbufs⟩, ⟨HsemS, HsemO, Hsems⟩, HO⟩
  ihave Hmw := ((K (F := F)).mayWaits_none (thr := V d (cV L) (jV L)) hO) $$ Hlv
  generalize hrest : tailP (F := F) L = rest
  sl_exec
  subst hrest
  unfold tailP
  unfold tile_body.sl.dma0
  generalize hfs1 : View.write (Elt F) (sRow).view fs (ReadAs.same.apply (View.read (Elt F) (pRow).view fp)) Finset.univ = fs1
  -- the output semaphore's counter becomes the batch of 128 copies, none started
  imod (Transfers.batch_alloc' (EC (F := F)) tV none (NR L) (deliv (F := F) d L fo fs1) (sm := smO) (E := Set.univ)) $$ [HsemO] with HB
  · iexact HsemO
  -- the scratch, whole, as 128 read shares and a remainder
  ihave Hs' := (Entails.of_eq (pts_s_set (F := F) d L fullShare fs1).symm) $$ [Hs]
  · iexact Hs
  ihave Ht := (Transfers.pointsTo_toks_split fullShare 128) $$ [Hs']
  · iexact Hs'
  icases Ht with ⟨Hsrem, Htoks⟩
  ihave Hrows' := (Entails.of_eq (Transfers.bigSep_pending_zero (n := 128) _)) $$ [Hrows]
  · iexact Hrows
  ihave Htoks' := (Entails.of_eq (Transfers.bigSep_pending_zero (n := 128) _)) $$ [Htoks]
  · iexact Htoks
  iapply (issue_phase (F := F) d L fo fs1 _ _ 128 0 rfl) $$ [HB Hrows' Htoks' Hp Hsrem HsemS HO Hbufs Hsems]
  isplitl [HB]; · iexact HB
  isplitl [Hrows']; · iexact Hrows'
  isplitl [Htoks']; · iexact Htoks'
  iintro HB
  iapply (wait_phase (F := F) d L fo fs1 O [waitP (F := F) L 127] _ 127 0 _ rfl) $$ [HB Hp Hsrem HsemS HO Hbufs Hsems]
  isplitr; · iexact Hmw
  isplitl [HB]; · rw [Nat.zero_mul]; iexact HB
  isplitl [HO]; · iexact HO
  iintro ⟨HB, HO⟩
  simp only [seqP]
  unfold waitP
  simp only [Prog.lift, Prog.bind_op, Prog.bind_ret]
  ihave Hm1 := (Transfers.MayWaits.elim (c := V d (cV L) (jV L)) (ι := (none : HIx 1)) (O := O) smO) $$ Hmw
  iapply (Transfers.wp_waitBatchLastO (EC (F := F)) 𝒱₀ tV none (srcw := sW) (dstw := rowM L 127) none (N := NR L) rfl (NR_pos L)
      (D := deliv (F := F) d L fo _) (u := 127 * NR L) (by ring) (O := O)) $$ [HB HO Hm1]
  · isplitl [HB]; · iexact HB
    isplitl [HO]; · iexact HO
    iexact Hm1
  iintro ⟨HD, HsemO, HO⟩
  -- every row written and every read share back; the scratch whole again
  ihave HD' := (Entails.of_eq (deliv_all (F := F) d L fo fs1)) $$ [HD]
  · iexact HD
  icases HD' with ⟨Hrows, Htoks⟩
  ihave Hs := (Transfers.pointsTo_toks_join fullShare 128) $$ [Hsrem Htoks]
  · isplitl [Hsrem]; · iexact Hsrem
    iexact Htoks
  ihave Hs' := (Entails.of_eq (pts_s_set (F := F) d L fullShare fs1)) $$ [Hs]
  · iexact Hs
  -- what was copied is the table's row: the scratch was filled with it and is read whole
  have hw : ∀ x, ReadAs.same.apply ((sW).view.read (Elt F) fs1) x = fp x := by
    intro x; rw [← hfs1]; exact payload_eq d L fp fs x
  ihave Hrows' := (Entails.of_eq (bigSep_congr fun k _ => row_done (F := F) d L k fo fp _ hw)) $$ [Hrows]
  · iexact Hrows
  sl_step
  isplitl [Hp Hrows']
  · isplitl [Hp]; · iexact Hp
    iexact Hrows'
  isplitl [Hs' Hbufs]
  · isplitl [Hs']; · iexists _; iexact Hs'
    iexact Hbufs
  isplitl [HsemS HsemO Hsems]
  · isplitl [HsemS]; · iexact HsemS
    isplitl [HsemO]; · iexact HsemO
    iexact Hsems
  iexists (insert (smO, (none : HIx 1)) (insN (smO, (none : HIx 1)) 127 (insert (SemLoc.dma cc0_scoped0.sem, (default : HIx 1)) W)))
  isplitr
  · ipureintro
    intro p hp
    rcases Finset.mem_insert.mp hp with rfl | hp
    · exact .inr rfl
    rcases mem_insN _ _ _ hp with hp | rfl
    · rcases Finset.mem_insert.mp hp with rfl | hp
      · exact .inr rfl
      · exact .inl hp
    · exact .inr rfl
  · iexact HO

end Tile

/-! ## The launch theorem's obligation -/

section Obl

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_bcast (coordsV c s)
          pW (Memref.isWhole_whole _) oW (Memref.isWhole_whole _) sW (Memref.isWhole_whole _) cc0_scratch1 cc0_scoped0) ⟨⟩ c s := rfl

variable (m : (ℓ : Loc nD τ sig) → Buf (Elt F) ℓ)

/-- What a task is handed, as its proof takes it: the table's read share, and its block row by row. -/
theorem go_eq (d : Dev nD) (c : Fin ((K (F := F)).nCore 0)) (i : Fin ((K (F := F)).nSub 0))
    (hc : ((K (F := F)).core 0 c).val < grid0.bound 0) (hi : ((K (F := F)).sub 0 i).val < grid0.bound 1) :
    (P (F := F) m).go 0 d c i
      = iprop(((pW).view.loc (V d (cV (coordsV ⟨_, hc⟩ ⟨_, hi⟩)) (jV (coordsV ⟨_, hc⟩ ⟨_, hi⟩))) ↦{qT c.val i.val} flat m d)
          ∗ bigSep Finset.univ (fun k : Fin 128 => rowPts (F := F) d (coordsV ⟨_, hc⟩ ⟨_, hi⟩) k (m (oLoc d)))) := by
  rw [← block_rows_big]
  rfl

/-- What it hands back: the share, and its block, every row the flattened table. -/
theorem td_eq (d : Dev nD) (c : Fin ((K (F := F)).nCore 0)) (i : Fin ((K (F := F)).nSub 0))
    (hc : ((K (F := F)).core 0 c).val < grid0.bound 0) (hi : ((K (F := F)).sub 0 i).val < grid0.bound 1) :
    (P (F := F) m).td 0 d c i
      = iprop(((pW).view.loc (V d (cV (coordsV ⟨_, hc⟩ ⟨_, hi⟩)) (jV (coordsV ⟨_, hc⟩ ⟨_, hi⟩))) ↦{qT c.val i.val} flat m d)
          ∗ bigSep Finset.univ (fun k : Fin 128 => rowPts (F := F) d (coordsV ⟨_, hc⟩ ⟨_, hi⟩) k (rowOf d (flat m d)))) := by
  rw [← block_rows_big, rowOf_flat]
  rfl

theorem tileObl : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have key := tile_body (F := F) d (coordsV ⟨_, hc.1⟩ ⟨_, hc.2⟩) facts O W hO (qT c.val i.val) (flat m d) (m (oLoc d))
  rw [go_eq m d c i hc.1 hc.2, td_eq m d c i hc.1 hc.2]
  refine key.trans (wp_mono frame _ _ fun _ => ?_)
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Obl

end Cert.Proof.KB

end
-- ==== Proof.KICommon.lean ====
/-
  The broadcast kernel as the launch theorem sees it, and the vocabulary of its proof: the arrays, the
  rows of the result each vector subcore fills, and the sets of rows a SparseCore and a vector subcore
  are handed. Vector subcore `s` of SparseCore `c` is worker `w = 2 s + c`; it fills the 128 rows
  `128 w … 128 w + 127` of the 4096-row result, every one with the single row of the flattened table.
-/
import proofs.«213661_g87797721464909_cont_9to1_m_233_16_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«213661_g87797721464909_cont_9to1_m_233_16_alg».proof.Proof.Gen.KernelIdeal
import proofs.«213661_g87797721464909_cont_9to1_m_233_16_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The index array (unused by the kernel), the table, the flattened table, the 4096 x 12800 result, its reshaping. -/
abbrev aLoc (d : Dev nD) : Loc nD τ sig := (SparseCore.T d).loc main_arg0
abbrev peLoc (d : Dev nD) : Loc nD τ sig := (SparseCore.T d).loc main_arg1
abbrev pLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev pW : Memref sig .scVector .hbm S1x12800 .f32 := Memref.whole main_v0_scv
abbrev oW : Memref sig .scVector .hbm S4096x12800 .f32 := Memref.whole main_v1_scv
abbrev sW : Memref sig .scVector .vmem S1x12800 .f32 := Memref.whole cc0_scratch0

/-- Row `k` (of 128) of the block of vector subcore `L`, as the kernel slices it. -/
abbrev rowM (L : grid0.Coords) (k : Fin 128) : Memref sig .scVector .hbm S1x12800 .f32 :=
  (oW).slice (Rect.unit (s := S4096x12800) (k0_off1 L (BitVec.ofNat 32 k.val)) S1x12800.size (k0_off1_inb L k)) (fun _ => rfl)

abbrev cV (L : grid0.Coords) : Fin τ.nSC := (L 0).castLE hcore0
abbrev jV (L : grid0.Coords) : Fin τ.nSub := (L 1).castLE hsub0

/-- The rows `0 … 127`, listed: a subcore's rows are handed to its proof one by one. -/
abbrev rows128 : List (Fin 128) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127]

end Cert.Proof.KI

end
-- ==== Proof.KIPay.lean ====
/-
  What the launch's handshakes carry. The TensorCore hands each SparseCore a read share of the flattened
  table and the result rows of that SparseCore's sixteen workers; the sequencer hands each vector subcore
  a smaller read share and its own 128 rows; back come the same rows, every one holding the flattened
  table. Rows are named by their number: a set of rows of the 4096 x 12800 result is the set of its
  indices whose first coordinate lies in a set of naturals.
-/
import proofs.«213661_g87797721464909_cont_9to1_m_233_16_alg».proof.Proof.KICommon
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Sets of result rows -/

/-- The indices of the 4096 x 12800 result whose row number lies in `s`. -/
def rowsIn (s : Finset ℕ) : Finset S4096x12800.Idx := Finset.univ.filter fun i => (i 0).val ∈ s

theorem mem_rowsIn {s : Finset ℕ} {i : S4096x12800.Idx} : i ∈ rowsIn s ↔ (i 0).val ∈ s := by
  unfold rowsIn; rw [Finset.mem_filter]; exact ⟨fun h => h.2, fun h => ⟨Finset.mem_univ _, h⟩⟩

/-- Worker `w` fills rows `128 w … 128 w + 127`. -/
def blockRows (w : ℕ) : Finset ℕ := Finset.Ico (128 * w) (128 * w + 128)

/-- SparseCore `c`'s sixteen workers are `2 s + c`, `s < 16`. -/
def coreRows (c : ℕ) : Finset ℕ := (Finset.range 16).biUnion fun s => blockRows (2 * s + c)

/-! ## Contents -/

variable (m : (ℓ : Loc nD τ sig) → Buf (Elt F) ℓ)

/-- The flattened table: the table's launch contents read in row-major order as one row of 12800. -/
def flat (d : Dev nD) : Buf (Elt F) (pLoc d) :=
  fun i => shapeCast S1x12800 (m (peLoc d)) Facts₀.shapeCasts_S200x64_S1x12800 i

/-- The result the kernel leaves: every row is the flattened table. -/
def bcast (d : Dev nD) : Buf (Elt F) (oLoc d) :=
  fun i => flat m d (ValueIdx.ix2 (n0 := 1) (n1 := 12800) 0 (i 1))

/-! ## Read shares of the flattened table: one per SparseCore, of it one per vector subcore -/

abbrev qC (c : ℕ) : PosShare TreeShare := Transfers.shareTokN fullShare c
abbrev qT (c i : ℕ) : PosShare TreeShare := Transfers.shareTokN (qC c) i

/-! ## The payloads -/

def P : (K (F := F)).Pay (nD := nD) (Val := Elt F) (Name := ℕ) (U := UU) where
  st := fun _ d c => iprop((pLoc d ↦{qC c.val} flat m d) ∗ (oLoc d ↦[rowsIn (coreRows c.val)]{fullShare} m (oLoc d)))
  dn := fun _ d c => iprop((pLoc d ↦{qC c.val} flat m d) ∗ (oLoc d ↦[rowsIn (coreRows c.val)]{fullShare} bcast m d))
  go := fun _ d c i => iprop((pLoc d ↦{qT c.val i.val} flat m d) ∗ (oLoc d ↦[rowsIn (blockRows (2 * i.val + c.val))]{fullShare} m (oLoc d)))
  td := fun _ d c i => iprop((pLoc d ↦{qT c.val i.val} flat m d) ∗ (oLoc d ↦[rowsIn (blockRows (2 * i.val + c.val))]{fullShare} bcast m d))
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.KI

end
-- ==== Proof.KILaunchSplit.lean ====
/-
  How the result's 4096 rows and the read shares of the flattened table are dealt out: the TensorCore
  hands each of the two SparseCores the rows of its sixteen workers, and a SparseCore hands each worker
  its own block of 128 rows. Every such split is a disjoint union of sets of row numbers, so the facts
  needed are arithmetic on naturals below 4096; the points-to assertions follow them.
-/
import proofs.«213661_g87797721464909_cont_9to1_m_233_16_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

namespace Launch

/-! ## Sets of rows: unions and disjointness are arithmetic on row numbers -/

theorem rowsIn_disjoint {s t : Finset ℕ} (h : Disjoint s t) : Disjoint (rowsIn s) (rowsIn t) :=
  Finset.disjoint_left.mpr fun _ hs ht => Finset.disjoint_left.mp h (mem_rowsIn.mp hs) (mem_rowsIn.mp ht)

theorem mem_blockRows {w x : ℕ} : x ∈ blockRows w ↔ 128 * w ≤ x ∧ x < 128 * w + 128 := by
  unfold blockRows; exact Finset.mem_Ico

theorem mem_coreRows {c x : ℕ} : x ∈ coreRows c ↔ ∃ s, s < 16 ∧ 128 * (2 * s + c) ≤ x ∧ x < 128 * (2 * s + c) + 128 := by
  unfold coreRows
  rw [Finset.mem_biUnion]
  exact ⟨fun ⟨s, hs, h⟩ => ⟨s, Finset.mem_range.mp hs, mem_blockRows.mp h⟩, fun ⟨s, hs, h⟩ => ⟨s, Finset.mem_range.mpr hs, mem_blockRows.mpr h⟩⟩

/-- Two workers' blocks of rows do not meet. -/
theorem blockRows_disjoint {w w' : ℕ} (h : w ≠ w') : Disjoint (blockRows w) (blockRows w') := by
  refine Finset.disjoint_left.mpr fun x h1 h2 => ?_
  rw [mem_blockRows] at h1 h2; omega

/-- A SparseCore's rows are its sixteen workers' blocks. -/
theorem rowsIn_coreRows (c : ℕ) :
    rowsIn (coreRows c) = (Finset.univ : Finset (Fin 16)).biUnion fun i => rowsIn (blockRows (2 * i.val + c)) := by
  ext x
  rw [mem_rowsIn, mem_coreRows, Finset.mem_biUnion]
  constructor
  · rintro ⟨s, hs, h⟩; exact ⟨⟨s, hs⟩, Finset.mem_univ _, mem_rowsIn.mpr (mem_blockRows.mpr h)⟩
  · rintro ⟨i, -, h⟩; exact ⟨i.val, i.isLt, mem_blockRows.mp (mem_rowsIn.mp h)⟩

theorem blocks_disjoint (c : ℕ) : ∀ i ∈ (Finset.univ : Finset (Fin 16)), ∀ j ∈ (Finset.univ : Finset (Fin 16)), i ≠ j →
    Disjoint (rowsIn (blockRows (2 * i.val + c))) (rowsIn (blockRows (2 * j.val + c))) :=
  fun i _ j _ h => rowsIn_disjoint (blockRows_disjoint (by have := Fin.val_ne_of_ne h; omega))

/-- The two SparseCores' rows do not meet (worker numbers of different parity), -/
theorem cores_disjoint : ∀ c ∈ (Finset.univ : Finset (Fin 2)), ∀ c' ∈ (Finset.univ : Finset (Fin 2)), c ≠ c' →
    Disjoint (rowsIn (coreRows c.val)) (rowsIn (coreRows c'.val)) := by
  intro c _ c' _ h
  refine rowsIn_disjoint (Finset.disjoint_left.mpr fun x h1 h2 => ?_)
  rw [mem_coreRows] at h1 h2
  obtain ⟨s, _, h1⟩ := h1; obtain ⟨s', _, h2⟩ := h2
  have := Fin.val_ne_of_ne h; have := c.isLt; have := c'.isLt
  omega

/-- and together they are all 4096 rows. -/
theorem cores_cover : (Finset.univ : Finset (Fin 2)).biUnion (fun c => rowsIn (coreRows c.val)) = (Finset.univ : Finset S4096x12800.Idx) := by
  ext x
  rw [Finset.mem_biUnion]
  refine ⟨fun _ => Finset.mem_univ _, fun _ => ?_⟩
  have hx : (x 0).val < 4096 := (x 0).isLt
  refine ⟨⟨(x 0).val / 128 % 2, Nat.mod_lt _ (by decide)⟩, Finset.mem_univ _, mem_rowsIn.mpr (mem_coreRows.mpr ⟨(x 0).val / 256, ?_, ?_, ?_⟩)⟩
  · omega
  · show 128 * (2 * ((x 0).val / 256) + (x 0).val / 128 % 2) ≤ (x 0).val; omega
  · show (x 0).val < 128 * (2 * ((x 0).val / 256) + (x 0).val / 128 % 2) + 128; omega

/-! ## The result's rows dealt out: to the SparseCores, and within one to its workers -/

theorem oPts_cores (d : Dev nD) (f : Buf (Elt F) (oLoc d)) :
    (oLoc d ↦{fullShare} f : sProp 𝕄) = bigSep Finset.univ fun c : Fin 2 => oLoc d ↦[rowsIn (coreRows c.val)]{fullShare} f := by
  rw [← pointsTo_biUnion Finset.univ (ℓ := oLoc d) (fun c : Fin 2 => rowsIn (coreRows c.val)) cores_disjoint, cores_cover]

theorem oPts_blocks (d : Dev nD) (c : ℕ) (f : Buf (Elt F) (oLoc d)) :
    (oLoc d ↦[rowsIn (coreRows c)]{fullShare} f : sProp 𝕄) = bigSep Finset.univ fun i : Fin 16 => oLoc d ↦[rowsIn (blockRows (2 * i.val + c))]{fullShare} f := by
  rw [rowsIn_coreRows, pointsTo_biUnion Finset.univ (ℓ := oLoc d) (fun i : Fin 16 => rowsIn (blockRows (2 * i.val + c))) (blocks_disjoint c)]

end Launch

open Launch

variable [FloatOps F]

/-! ## A SparseCore's operands split among its sixteen workers

The sixteen read tokens are split off the SparseCore's own token and the remainder is kept inside the returned
wand; the SparseCore's rows are dealt block by block. Coming back, the tokens rejoin the remainder and the blocks,
each now holding the flattened table, make up the SparseCore's rows again. -/

theorem vecSplit : (K (F := F)).VecSplit' (P m) 0 := by
  intro d c
  show iprop((pLoc d ↦{qC c.val} flat m d) ∗ (oLoc d ↦[rowsIn (coreRows c.val)]{fullShare} m (oLoc d))) ⊢ |={Set.univ}=> iprop(
      (bigSep Finset.univ fun i : Fin 16 =>
        iprop((pLoc d ↦{qT c.val i.val} flat m d) ∗ (oLoc d ↦[rowsIn (blockRows (2 * i.val + c.val))]{fullShare} m (oLoc d))))
      ∗ ((bigSep Finset.univ fun i : Fin 16 =>
          iprop((pLoc d ↦{qT c.val i.val} flat m d) ∗ (oLoc d ↦[rowsIn (blockRows (2 * i.val + c.val))]{fullShare} bcast m d)))
          -∗ iprop((pLoc d ↦{qC c.val} flat m d) ∗ (oLoc d ↦[rowsIn (coreRows c.val)]{fullShare} bcast m d))))
  rw [bigSep_sep', bigSep_sep', oPts_blocks, oPts_blocks]
  iintro ⟨Hp, Ho⟩
  ihave Hp' := (Transfers.pointsTo_toks_split (qC c.val) 16) $$ Hp
  icases Hp' with ⟨Hrest, Htoks⟩
  imodintro
  isplitl [Htoks Ho]
  · isplitl [Htoks]; · iexact Htoks
    iexact Ho
  iintro ⟨Htoks, Ho⟩
  isplitl [Hrest Htoks]
  · iapply (Transfers.pointsTo_toks_join (qC c.val) 16)
    isplitl [Hrest]; · iexact Hrest
    iexact Htoks
  iexact Ho

end Cert.Proof.KI

end
-- ==== Proof.KILaunch.lean ====
/-
  The launch side of the broadcast kernel's run. The launch element of the ghost state is the handshakes'
  rounds beside empty transfer counters. @main on the TensorCore flattens the 200 x 64 table into one row of
  12800, hands each SparseCore a read token of that row and the result's rows of its workers, takes back
  all 4096 rows each holding the flattened table, and reads the 4096 x 12800 result as 4096 x 200 x 64. That
  last reading is the table repeated along a new leading axis: position (b * 200 + s) * 64 + e of the
  three-dimensional array is row b, column s * 64 + e of the two-dimensional one, and column s * 64 + e of
  the flattened table is entry (s, e) of the table. The final memory then reads off the claim.
-/
import proofs.«213661_g87797721464909_cont_9to1_m_233_16_alg».proof.Proof.KILaunchSplit
import proofs.«213661_g87797721464909_cont_9to1_m_233_16_alg».proof.Proof.Spec
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.ValueIdx

variable (m : (ℓ : Loc nD τ sig) → Buf (Elt F) ℓ) (ρ : Dev nD → PrngReg)

variable [FloatOps F]

open Launch

/-! ## The launch element: the handshakes' rounds; the transfers' counters start empty -/

def u₀ : UU := (initOf (K (F := F)).hsCells (K (F := F)).hsToks, 1)

omit [FloatOps F] in
theorem Launch.bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

namespace Launch

/-! ## The value: the broadcast result read as 4096 x 200 x 64 is the table repeated

Position `(b * 200 + s) * 64 + e` of the three-dimensional result is row `b`, column `s * 64 + e` of the
two-dimensional one; every row of that is the flattened table, whose column `s * 64 + e` is entry `(s, e)`
of the table. -/

omit [FloatOps F] in
theorem flat_apply (d : Dev nD) (s : Fin 200) (e : Fin 64) (col : Fin 12800) (h : col.val = s.val * 64 + e.val) :
    flat m d (ix2 (n0 := 1) (n1 := 12800) 0 col) = m (peLoc d) (ix2 (n0 := 200) (n1 := 64) s e) := by
  unfold flat
  refine shapeCast_apply _ _ _ _ ?_
  show ((⟨2, ![200, 64]⟩ : Shape).rowMajor (ix2 (n0 := 200) (n1 := 64) s e)).val = ((⟨2, ![1, 12800]⟩ : Shape).rowMajor (ix2 (n0 := 1) (n1 := 12800) 0 col)).val
  rw [Shape.rowMajor_val_two, Shape.rowMajor_val_two]
  show s.val * 64 + e.val = 0 * 12800 + col.val
  omega

omit [FloatOps F] in
theorem cast_bcast_apply (d : Dev nD) (b : Fin 4096) (s : Fin 200) (e : Fin 64) :
    shapeCast S4096x200x64 (bcast m d) Facts₀.shapeCasts_S4096x12800_S4096x200x64 (ix3 (n0 := 4096) (n1 := 200) (n2 := 64) b s e)
      = m (peLoc d) (ix2 (n0 := 200) (n1 := 64) s e) := by
  have hc : s.val * 64 + e.val < 12800 := by have := s.isLt; have := e.isLt; omega
  refine (shapeCast_apply (bcast m d) _ _ (ix2 (n0 := 4096) (n1 := 12800) b ⟨s.val * 64 + e.val, hc⟩) ?_).trans ?_
  · show ((⟨2, ![4096, 12800]⟩ : Shape).rowMajor (ix2 (n0 := 4096) (n1 := 12800) b ⟨s.val * 64 + e.val, hc⟩)).val
      = ((⟨3, ![4096, 200, 64]⟩ : Shape).rowMajor (ix3 (n0 := 4096) (n1 := 200) (n2 := 64) b s e)).val
    rw [Shape.rowMajor_val_two, Shape.rowMajor_val_three]
    show b.val * 12800 + (s.val * 64 + e.val) = (b.val * 200 + s.val) * 64 + e.val
    omega
  · exact flat_apply m d s e ⟨s.val * 64 + e.val, hc⟩ rfl

omit [FloatOps F] in
/-- The result's last reading is the table repeated along the new leading axis. -/
theorem cast_bcast (d : Dev nD) :
    (fun j => shapeCast S4096x200x64 (bcast m d) Facts₀.shapeCasts_S4096x12800_S4096x200x64 j) = Cert.Spec.tiled (m (peLoc d)) := by
  funext j
  rw [eq_ix3 j]
  exact cast_bcast_apply m d (j 0) (j 1) (j 2)

/-! ## @main on the TensorCore -/

abbrev a' : DevRef τ sig := Proc.devRef .tc (main_arg0 : Ref sig .tc)
abbrev pe' : DevRef τ sig := Proc.devRef .tc (main_arg1 : Ref sig .tc)
abbrev p' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opFlat : HloOp τ sig (Elt F) := StableHlo.reshape main_arg1 main_v0 rfl Facts₀.shapeCasts_S200x64_S1x12800
abbrev opTile : HloOp τ sig (Elt F) := StableHlo.reshape main_v1 main_v2 rfl Facts₀.shapeCasts_S4096x12800_S4096x200x64

/-- The TensorCore's arrays, all unscoped. -/
abbrev S5 : Finset (DevRef τ sig) := {a', pe', p', o', r'}

omit [FloatOps F] in
theorem held_S5 (d : Dev nD) (W : Valuation τ sig (Elt F)) :
    (held (T d) S5 W : sProp 𝕄) = iprop((aLoc d ↦{fullShare} W a') ∗ (peLoc d ↦{fullShare} W pe') ∗ (pLoc d ↦{fullShare} W p')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (peLoc d ↦{fullShare} W main_arg1) ∗ (pLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; before the last reshape, the flattened table and the broadcast result in place. -/
def V0 (d : Dev nD) : Valuation τ sig (Elt F) := fun b => m (d, b)
def V1 (d : Dev nD) : Valuation τ sig (Elt F) := Function.update (Function.update (V0 m d) p' (flat m d)) o' (bcast m d)

omit [FloatOps F] in
theorem unscoped_held (d : Dev nD) : (unscopedBufs d (fun b => m ((SparseCore.T d).loc b)) : sProp 𝕄) = held (T d) S5 (V0 m d) := by
  rw [unscopedBufs_eq, held_S5]; rfl

omit [FloatOps F] in
theorem V1_a (d : Dev nD) : V1 m d a' = m (aLoc d) :=
  (Function.update_of_ne (show a' ≠ o' by decide) _ _).trans (Function.update_of_ne (show a' ≠ p' by decide) _ _)
omit [FloatOps F] in
theorem V1_pe (d : Dev nD) : V1 m d pe' = m (peLoc d) :=
  (Function.update_of_ne (show pe' ≠ o' by decide) _ _).trans (Function.update_of_ne (show pe' ≠ p' by decide) _ _)
omit [FloatOps F] in
theorem V1_p (d : Dev nD) : V1 m d p' = flat m d :=
  (Function.update_of_ne (show p' ≠ o' by decide) _ _).trans (Function.update_self _ _ _)
omit [FloatOps F] in
theorem V1_o (d : Dev nD) : V1 m d o' = bcast m d := Function.update_self _ _ _
omit [FloatOps F] in
theorem V1_r (d : Dev nD) : V1 m d r' = m (rLoc d) :=
  (Function.update_of_ne (show r' ≠ o' by decide) _ _).trans (Function.update_of_ne (show r' ≠ p' by decide) _ _)

/-- After the first reshape: the flattened table in place, the rest as launched. -/
theorem held_flat (d : Dev nD) :
    (held (T d) S5 ((opFlat (F := F)).result (V0 m d)) : sProp 𝕄) = iprop((aLoc d ↦{fullShare} m (aLoc d)) ∗ (peLoc d ↦{fullShare} m (peLoc d))
      ∗ (pLoc d ↦{fullShare} flat m d) ∗ (oLoc d ↦{fullShare} m (oLoc d)) ∗ rLoc d ↦{fullShare} m (rLoc d)) := by
  rw [held_S5,
    StableHlo.reshape_result_ne (x := main_arg1) (y := main_v0) _ _ _ _ (V0 m d) (r := main_arg0) (by decide),
    StableHlo.reshape_result_ne (x := main_arg1) (y := main_v0) _ _ _ _ (V0 m d) (r := main_arg1) (by decide),
    StableHlo.reshape_result_ne (x := main_arg1) (y := main_v0) _ _ _ _ (V0 m d) (r := main_v1) (by decide),
    StableHlo.reshape_result_ne (x := main_arg1) (y := main_v0) _ _ _ _ (V0 m d) (r := main_v2) (by decide),
    StableHlo.reshape_result]
  rfl

/-- After the last reshape: the result is the table repeated; the arguments as launched. -/
theorem held_tile (d : Dev nD) :
    (held (T d) S5 ((opTile (F := F)).result (V1 m d)) : sProp 𝕄) = iprop((aLoc d ↦{fullShare} m (aLoc d)) ∗ (peLoc d ↦{fullShare} m (peLoc d))
      ∗ (pLoc d ↦{fullShare} flat m d) ∗ (oLoc d ↦{fullShare} bcast m d) ∗ rLoc d ↦{fullShare} (Cert.Spec.tiled (m (peLoc d)))) := by
  rw [held_S5,
    StableHlo.reshape_result_ne (x := main_v1) (y := main_v2) _ _ _ _ (V1 m d) (r := main_arg0) (by decide),
    StableHlo.reshape_result_ne (x := main_v1) (y := main_v2) _ _ _ _ (V1 m d) (r := main_arg1) (by decide),
    StableHlo.reshape_result_ne (x := main_v1) (y := main_v2) _ _ _ _ (V1 m d) (r := main_v0) (by decide),
    StableHlo.reshape_result_ne (x := main_v1) (y := main_v2) _ _ _ _ (V1 m d) (r := main_v1) (by decide),
    StableHlo.reshape_result, V1_a, V1_pe, V1_p, V1_o, ← cast_bcast m d]
  rfl

/-- What the call takes for the two SparseCores: a read token of the flattened table each, and all rows of the result. -/
theorem st0_eq (d : Dev nD) : (bigSep Finset.univ fun c : Fin ((K (F := F)).nCore 0) => (P m).st 0 d c)
    = iprop((bigSep Finset.univ fun c : Fin 2 => pLoc d ↦{Transfers.shareTok fullShare 2 c} flat m d) ∗ (oLoc d ↦{fullShare} m (oLoc d))) := by
  show (bigSep (Finset.univ : Finset (Fin 2)) fun c => iprop((pLoc d ↦{qC c.val} flat m d) ∗ (oLoc d ↦[rowsIn (coreRows c.val)]{fullShare} m (oLoc d)))) = _
  rw [bigSep_sep', ← oPts_cores]
/-- What it hands back: the tokens, and all rows of the result holding the flattened table. -/
theorem dn0_eq (d : Dev nD) : (bigSep Finset.univ fun c : Fin ((K (F := F)).nCore 0) => (P m).dn 0 d c)
    = iprop((bigSep Finset.univ fun c : Fin 2 => pLoc d ↦{Transfers.shareTok fullShare 2 c} flat m d) ∗ (oLoc d ↦{fullShare} bcast m d)) := by
  show (bigSep (Finset.univ : Finset (Fin 2)) fun c => iprop((pLoc d ↦{qC c.val} flat m d) ∗ (oLoc d ↦[rowsIn (coreRows c.val)]{fullShare} bcast m d))) = _
  rw [bigSep_sep', ← oPts_cores]

theorem hFlat : (opFlat (F := F)).bufs ⊆ S5 := show ({pe', p'} : Finset (DevRef τ sig)) ⊆ S5 by decide
theorem hTile : (opTile (F := F)).bufs ⊆ S5 := show ({o', r'} : Finset (DevRef τ sig)) ⊆ S5 by decide

end Launch

/-- What @main leaves the claim: the arguments at their launch contents, the result the table repeated. -/
abbrev FIN (d : Dev nD) : sProp 𝕄 :=
  iprop((aLoc d ↦{fullShare} m (aLoc d)) ∗ (peLoc d ↦{fullShare} m (peLoc d)) ∗ (rLoc d ↦{fullShare} (Cert.Spec.tiled (m (peLoc d)))))

/-- @main on device `d`'s TensorCore: the table flattened, the call (a read token of the flattened table to each
    SparseCore, the remainder kept; all rows of the result out and back), the result read as 4096 x 200 x 64. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the table flattened
  iapply (wp_hlo_within 𝒱 (SparseCore.T d) none Set.univ (op := opFlat) (S := S5) hFlat (V := V0 m d)) $$ [Hb Hheld]
  · isplitl [Hb]; · iexact Hb
    iexact Hheld
  iintro ⟨Hb, Hheld⟩
  ihave Hh := (Entails.of_eq (held_flat m d)) $$ Hheld
  icases Hh with ⟨Ha, Hpe, Hp, Ho, Hr⟩
  rw [wp_ret]; imodintro
  -- the call
  ihave Hp' := (Transfers.pointsTo_toks_split fullShare 2) $$ Hp
  icases Hp' with ⟨Hrest, Htoks⟩
  iapply ((K (F := F)).wp_run (D (F := F)) 𝒱 (EH := EH) (P := P m) κ d 0) $$ [Hst Htoks Ho Hb Ha Hpe Hr Hrest]
  isplitr; · iexact Hctx
  isplitl [Hst]; · iexact Hst
  isplitl [Htoks Ho]
  · rw [st0_eq]
    isplitl [Htoks]; · iexact Htoks
    iexact Ho
  iintro ⟨Hst, Hdn⟩
  ihave Hdn' := (Entails.of_eq (dn0_eq m d)) $$ Hdn
  icases Hdn' with ⟨Htoks, Ho⟩
  ihave Hp := (Transfers.pointsTo_toks_join fullShare 2) $$ [Hrest Htoks]
  · isplitl [Hrest]; · iexact Hrest
    iexact Htoks
  -- the result read at its final shape
  iapply (wp_hlo_within 𝒱 (SparseCore.T d) none Set.univ (op := opTile) (S := S5) hTile (V := V1 m d)) $$ [Hb Ha Hpe Hp Ho Hr]
  · isplitl [Hb]; · iexact Hb
    rw [held_S5, V1_a, V1_pe, V1_p, V1_o, V1_r]
    isplitl [Ha]; · iexact Ha
    isplitl [Hpe]; · iexact Hpe
    isplitl [Hp]; · iexact Hp
    isplitl [Ho]; · iexact Ho
    iexact Hr
  iintro ⟨Hb, Hheld⟩
  ihave Hh := (Entails.of_eq (held_tile m d)) $$ Hheld
  icases Hh with ⟨Ha, Hpe, -, -, Hr⟩
  rw [wp_ret]; imodintro; imodintro
  isplitl [Hst]; · iexact Hst
  isplitl [Ha]; · iexact Ha
  isplitl [Hpe]; · iexact Hpe
  iexact Hr

namespace Launch

/-! ## The final memory, the program's run and the claim -/

def fq (d : Dev nD) (s' : Phys nD τ sig (Elt F)) : Prop :=
  s'.mem.mem (rLoc d) = Cert.Spec.tiled (m (peLoc d)) ∧ s'.mem.mem (aLoc d) = m (aLoc d) ∧ s'.mem.mem (peLoc d) = m (peLoc d)

theorem hfin (d : Dev nD) (s' : Phys nD τ sig (Elt F)) : iprop(FIN m d ∗ SI s') ⊢ (⌜fq m d s'⌝ : sProp 𝕄) := by
  iintro ⟨⟨Ha, Hpe, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := peLoc d) (I := Finset.univ) (q := fullShare) (f := m (peLoc d)))) $$ [HSI Hpe]
  · isplitl [HSI] <;> iassumption
  icases H with ⟨%h2, HSI, -⟩
  ihave H := (SI_pointsTo_agree (st := s') (ℓ := rLoc d) (I := Finset.univ) (q := fullShare) (f := Cert.Spec.tiled (m (peLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

end Launch

/-- The claim: on every device the result is the table repeated, and the two arguments are unchanged. -/
def QC : PUnit × MemSt nD τ sig (Elt F) → Prop := fun r => ∀ c : Dev nD,
  r.2.mem (rLoc c) = Cert.Spec.tiled (m (peLoc c)) ∧ r.2.mem (aLoc c) = m (aLoc c) ∧ r.2.mem (peLoc c) = m (peLoc c)

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KIRowsDef.lean ====
/-
  A vector subcore's 128 rows, one assertion each: row `k` of its block is held through the memref the
  kernel itself slices for it, so that the kernel's copy into that row finds it. The block is the chain
  of its rows. `rowOf fp` is the result a row holds once the flattened table `fp` has been copied into
  it: at column `j`, `fp` at `j`.
-/
import proofs.«213661_g87797721464909_cont_9to1_m_233_16_alg».proof.Proof.KICommon
import proofs.«213661_g87797721464909_cont_9to1_m_233_16_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Rows

variable (d : Dev nD) (L : grid0.Coords)

/-- Row `k` of the block of vector subcore `L`, held by exactly its own elements at contents `f`. -/
abbrev rowPts (k : Fin 128) (f : Buf (Elt F) (oLoc d)) : sProp 𝕄 :=
  (rowM L k).view.loc (V d (cV L) (jV L)) ↦[(rowM L k).view.set]{fullShare} f

/-- The 128 rows, in order. -/
def rowsChain (f : Buf (Elt F) (oLoc d)) : sProp 𝕄 :=
  iprop(rowPts (F := F) d L 0 f ∗ rowPts (F := F) d L 1 f ∗ rowPts (F := F) d L 2 f ∗ rowPts (F := F) d L 3 f ∗ rowPts (F := F) d L 4 f ∗ rowPts (F := F) d L 5 f ∗ rowPts (F := F) d L 6 f ∗ rowPts (F := F) d L 7 f ∗ rowPts (F := F) d L 8 f ∗ rowPts (F := F) d L 9 f ∗ rowPts (F := F) d L 10 f ∗ rowPts (F := F) d L 11 f ∗ rowPts (F := F) d L 12 f ∗ rowPts (F := F) d L 13 f ∗ rowPts (F := F) d L 14 f ∗ rowPts (F := F) d L 15 f ∗ rowPts (F := F) d L 16 f ∗ rowPts (F := F) d L 17 f ∗ rowPts (F := F) d L 18 f ∗ rowPts (F := F) d L 19 f ∗ rowPts (F := F) d L 20 f ∗ rowPts (F := F) d L 21 f ∗ rowPts (F := F) d L 22 f ∗ rowPts (F := F) d L 23 f ∗ rowPts (F := F) d L 24 f ∗ rowPts (F := F) d L 25 f ∗ rowPts (F := F) d L 26 f ∗ rowPts (F := F) d L 27 f ∗ rowPts (F := F) d L 28 f ∗ rowPts (F := F) d L 29 f ∗ rowPts (F := F) d L 30 f ∗ rowPts (F := F) d L 31 f ∗ rowPts (F := F) d L 32 f ∗ rowPts (F := F) d L 33 f ∗ rowPts (F := F) d L 34 f ∗ rowPts (F := F) d L 35 f ∗ rowPts (F := F) d L 36 f ∗ rowPts (F := F) d L 37 f ∗ rowPts (F := F) d L 38 f ∗ rowPts (F := F) d L 39 f ∗ rowPts (F := F) d L 40 f ∗ rowPts (F := F) d L 41 f ∗ rowPts (F := F) d L 42 f ∗ rowPts (F := F) d L 43 f ∗ rowPts (F := F) d L 44 f ∗ rowPts (F := F) d L 45 f ∗ rowPts (F := F) d L 46 f ∗ rowPts (F := F) d L 47 f ∗ rowPts (F := F) d L 48 f ∗ rowPts (F := F) d L 49 f ∗ rowPts (F := F) d L 50 f ∗ rowPts (F := F) d L 51 f ∗ rowPts (F := F) d L 52 f ∗ rowPts (F := F) d L 53 f ∗ rowPts (F := F) d L 54 f ∗ rowPts (F := F) d L 55 f ∗ rowPts (F := F) d L 56 f ∗ rowPts (F := F) d L 57 f ∗ rowPts (F := F) d L 58 f ∗ rowPts (F := F) d L 59 f ∗ rowPts (F := F) d L 60 f ∗ rowPts (F := F) d L 61 f ∗ rowPts (F := F) d L 62 f ∗ rowPts (F := F) d L 63 f ∗ rowPts (F := F) d L 64 f ∗ rowPts (F := F) d L 65 f ∗ rowPts (F := F) d L 66 f ∗ rowPts (F := F) d L 67 f ∗ rowPts (F := F) d L 68 f ∗ rowPts (F := F) d L 69 f ∗ rowPts (F := F) d L 70 f ∗ rowPts (F := F) d L 71 f ∗ rowPts (F := F) d L 72 f ∗ rowPts (F := F) d L 73 f ∗ rowPts (F := F) d L 74 f ∗ rowPts (F := F) d L 75 f ∗ rowPts (F := F) d L 76 f ∗ rowPts (F := F) d L 77 f ∗ rowPts (F := F) d L 78 f ∗ rowPts (F := F) d L 79 f ∗ rowPts (F := F) d L 80 f ∗ rowPts (F := F) d L 81 f ∗ rowPts (F := F) d L 82 f ∗ rowPts (F := F) d L 83 f ∗ rowPts (F := F) d L 84 f ∗ rowPts (F := F) d L 85 f ∗ rowPts (F := F) d L 86 f ∗ rowPts (F := F) d L 87 f ∗ rowPts (F := F) d L 88 f ∗ rowPts (F := F) d L 89 f ∗ rowPts (F := F) d L 90 f ∗ rowPts (F := F) d L 91 f ∗ rowPts (F := F) d L 92 f ∗ rowPts (F := F) d L 93 f ∗ rowPts (F := F) d L 94 f ∗ rowPts (F := F) d L 95 f ∗ rowPts (F := F) d L 96 f ∗ rowPts (F := F) d L 97 f ∗ rowPts (F := F) d L 98 f ∗ rowPts (F := F) d L 99 f ∗ rowPts (F := F) d L 100 f ∗ rowPts (F := F) d L 101 f ∗ rowPts (F := F) d L 102 f ∗ rowPts (F := F) d L 103 f ∗ rowPts (F := F) d L 104 f ∗ rowPts (F := F) d L 105 f ∗ rowPts (F := F) d L 106 f ∗ rowPts (F := F) d L 107 f ∗ rowPts (F := F) d L 108 f ∗ rowPts (F := F) d L 109 f ∗ rowPts (F := F) d L 110 f ∗ rowPts (F := F) d L 111 f ∗ rowPts (F := F) d L 112 f ∗ rowPts (F := F) d L 113 f ∗ rowPts (F := F) d L 114 f ∗ rowPts (F := F) d L 115 f ∗ rowPts (F := F) d L 116 f ∗ rowPts (F := F) d L 117 f ∗ rowPts (F := F) d L 118 f ∗ rowPts (F := F) d L 119 f ∗ rowPts (F := F) d L 120 f ∗ rowPts (F := F) d L 121 f ∗ rowPts (F := F) d L 122 f ∗ rowPts (F := F) d L 123 f ∗ rowPts (F := F) d L 124 f ∗ rowPts (F := F) d L 125 f ∗ rowPts (F := F) d L 126 f ∗ rowPts (F := F) d L 127 f)

/-- Every row of the result holding the one-row array `fp`. -/
def rowOf (fp : Buf (Elt F) (pLoc d)) : Buf (Elt F) (oLoc d) :=
  fun i => fp (ValueIdx.ix2 (n0 := 1) (n1 := 12800) 0 (i 1))

variable (m : (ℓ : Loc nD τ sig) → Buf (Elt F) ℓ)

theorem rowOf_flat : rowOf d (flat m d) = bcast m d := rfl

end Rows

end Cert.Proof.KI

end
-- ==== Proof.KIFold.lean ====
/-
  The vector subcore's body as a list of steps, and the two runs of steps proved by induction. After the
  scratch has been filled with the flattened table, the body starts 128 copies of the scratch, copy `k`
  into row `k` of the subcore's block, all completing on one semaphore, and then waits 128 times for one
  row's worth of that semaphore. While the copies are in flight nothing is known of any row: only the
  wait that brings the count consumed to 128 rows' worth returns every row, written, and every read
  share of the scratch. The copies read one scratch: each borrows its own read share of it.
-/
import proofs.«213661_g87797721464909_cont_9to1_m_233_16_alg».proof.Proof.KICommon
import proofs.«213661_g87797721464909_cont_9to1_m_233_16_alg».proof.Proof.KIRowsDef

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Fold

variable [FloatOps F] (L : grid0.Coords)

abbrev Thr (L : grid0.Coords) : Proc τ := .scVector ((L 0).castLE hcore0) ((L 1).castLE hsub0)

/-- Copy `k`: the scratch row into row `k` of the block, started on the output semaphore. -/
def issueP (k : Fin 128) : Prog (TpuEff nD τ sig (Elt F) Λ₀ (Thr L)) PUnit :=
  Prog.lift (.enqueueDma sW (.here (rowM L k)) (.dma cc0_scratch1.sem) (Memref.isWhole_whole _).wordExact (View.wordExact_bits rfl) ⟨Or.inl rfl, trivial⟩)

/-- A wait for one row's worth of the output semaphore (the row it names only sizes the wait). -/
def waitP (k : Fin 128) : Prog (TpuEff nD τ sig (Elt F) Λ₀ (Thr L)) PUnit :=
  Prog.lift (.waitDma2 cc0_scratch1.sem sW (rowM L k) (Memref.isWhole_whole _).wordExact (View.wordExact_bits rfl))

/-- Steps one after the other. -/
def seqP {κ : Proc τ} : List (Prog (TpuEff nD τ sig (Elt F) Λ₀ κ) PUnit) → Prog (TpuEff nD τ sig (Elt F) Λ₀ κ) PUnit
  | [] => pure ⟨⟩
  | p :: ps => p >>= fun _ => seqP ps

/-- Copies `j, j + 1, …`, `n` of them. -/
def issuesFrom (j : ℕ) : ℕ → List (Prog (TpuEff nD τ sig (Elt F) Λ₀ (Thr L)) PUnit)
  | 0 => []
  | n + 1 => (if h : j < 128 then issueP (F := F) L ⟨j, h⟩ else pure ⟨⟩) :: issuesFrom (j + 1) n

/-- Waits `j, j + 1, …`, `n` of them. -/
def waitsFrom (j : ℕ) : ℕ → List (Prog (TpuEff nD τ sig (Elt F) Λ₀ (Thr L)) PUnit)
  | 0 => []
  | n + 1 => (if h : j < 128 then waitP (F := F) L ⟨j, h⟩ else pure ⟨⟩) :: waitsFrom (j + 1) n

/-- The table's one row and the scratch's one row, as the first copy slices them. -/
abbrev pRow : Memref sig .scVector .hbm S12800 .f32 :=
  ((pW).slice (Rect.unit (s := S1x12800) ![0, 0] S1x12800.size Facts₀.inb_S1x12800_S1x12800_0_0) (fun _ => rfl)).squeeze S12800 Facts₀.squeezes_S1x12800_S12800
abbrev sRow : Memref sig .scVector .vmem S12800 .f32 :=
  ((sW).slice (Rect.unit (s := S1x12800) ![0, 0] S1x12800.size Facts₀.inb_S1x12800_S1x12800_0_0) (fun _ => rfl)).squeeze S12800 Facts₀.squeezes_S1x12800_S12800

/-- The steps after the scratch is filled. -/
def tailP : Prog (TpuEff nD τ sig (Elt F) Λ₀ (Thr L)) PUnit :=
  seqP (issuesFrom (F := F) L 0 128 ++ (waitsFrom (F := F) L 0 127 ++ [waitP (F := F) L 127]))

/-- The body: fill the scratch (a copy and its wait on a semaphore of their own), then the steps. -/
def bodyP : Prog (TpuEff nD τ sig (Elt F) Λ₀ (Thr L)) PUnit := do
  Prog.lift (.enqueueDma pRow (.here sRow) (.dma cc0_scoped0.sem) ((View.wordExact_bits rfl).reshape _ _) ((View.wordExact_bits rfl).reshape _ _) ⟨Or.inl rfl, trivial⟩)
  Prog.lift (.waitDma2 cc0_scoped0.sem pRow sRow ((View.wordExact_bits rfl).reshape _ _) ((View.wordExact_bits rfl).reshape _ _))
  tailP (F := F) L

set_option maxRecDepth 1000000 in
/-- The printed body is that list of steps: the printed text unrolls it. -/
theorem body_eq :
    cc0_sc_bcast (F := F) L pW (Memref.isWhole_whole _) oW (Memref.isWhole_whole _) sW (Memref.isWhole_whole _) cc0_scratch1 cc0_scoped0 = bodyP (F := F) L := by
  rfl

end Fold

/-! ## The two runs -/

section Runs

variable [FloatOps F] (d : Dev nD) (L : grid0.Coords)

/-- The counters' copy in the certificate's algebra. -/
abbrev EC : UEmb Counters (MT nD τ sig (HIx 1) (Elt F) ℕ UU ℕ) := countersEmb (U := UU)

/-- One row's worth of the output semaphore. -/
abbrev NR : ℕ := (rowM L 0).view.amount (SemLoc.dma (sig := sig) cc0_scratch1.sem)

theorem NR_pos : 0 < NR L := View.amount_pos _ _ (show 0 < S1x12800.numel by decide)

/-- The scratch's read share lent to copy `k`. -/
abbrev tokS (k : Fin 128) (fs : Buf (Elt F) ((sW).view.loc (V d (cV L) (jV L)))) : sProp 𝕄 :=
  (sW).view.loc (V d (cV L) (jV L)) ↦[(sW).view.set]{Transfers.shareTok fullShare 128 k} fs

/-- What copy `k` delivers: row `k` written with the scratch's contents, and its read share of the scratch back. -/
def deliv (fo : Buf (Elt F) (oLoc d)) (fs : Buf (Elt F) ((sW).view.loc (V d (cV L) (jV L)))) (k : Fin 128) : sProp 𝕄 :=
  iprop(rowPts (F := F) d L k ((rowM L k).view.write (Elt F) fo (ReadAs.same.apply ((sW).view.read (Elt F) fs)) Finset.univ) ∗ tokS (F := F) d L k fs)

instance deliv_storable (fo : Buf (Elt F) (oLoc d)) (fs : Buf (Elt F) ((sW).view.loc (V d (cV L) (jV L)))) (k : Fin 128) :
    BI.Storable (upEmb : UEmb _ 𝕄) (deliv (F := F) d L fo fs k) := by
  unfold deliv; infer_instance

local notation "thr" => V d (cV L) (jV L)
local notation "smO" => SemLoc.dma (sig := sig) cc0_scratch1.sem
local notation "WP" => wp frame (wpE (defs₀ (F := F)) 𝒱₀ (V d (cV L) (jV L)) none) Set.univ

/-- The copies `j … 127`: from the rows and read shares not yet used, to all 128 in flight. -/
theorem issue_phase (fo : Buf (Elt F) (oLoc d)) (fs : Buf (Elt F) ((sW).view.loc thr))
    (tl : List (Prog (TpuEff nD τ sig (Elt F) Λ₀ (Thr L)) PUnit)) (Q : PUnit → sProp 𝕄) :
    ∀ (n j : ℕ), j + n = 128 →
      iprop(Transfers.Batch (EC (F := F)) thr smO none (NR L) (deliv (F := F) d L fo fs) j 0
          ∗ bigSep (Transfers.pending (n := 128) j) (fun k => rowPts (F := F) d L k fo)
          ∗ bigSep (Transfers.pending (n := 128) j) (fun k => tokS (F := F) d L k fs)
          ∗ (Transfers.Batch (EC (F := F)) thr smO none (NR L) (deliv (F := F) d L fo fs) 128 0 -∗ WP (seqP tl) Q))
        ⊢ WP (seqP (issuesFrom (F := F) L j n ++ tl)) Q := by
  intro n
  induction n with
  | zero =>
    intro j hj
    obtain rfl : j = 128 := by omega
    iintro ⟨HB, -, -, Hk⟩
    iapply Hk; iexact HB
  | succ n ih =>
    intro j hj
    have hj' : j < 128 := by omega
    rw [Transfers.bigSep_pending_step _ j hj', Transfers.bigSep_pending_step _ j hj']
    simp only [issuesFrom, dif_pos hj', List.cons_append]
    show _ ⊢ WP (issueP (F := F) L ⟨j, hj'⟩ >>= fun _ => seqP (issuesFrom (F := F) L (j + 1) n ++ tl)) Q
    unfold issueP
    simp only [Prog.lift, Prog.bind_op, Prog.bind_ret]
    iintro ⟨HB, ⟨Hrow, Hrows⟩, ⟨Htok, Htoks⟩, Hk⟩
    iapply (Transfers.wp_dmaBatch (EC (F := F)) 𝒱₀ thr none (src := sW) (dst := rowM L ⟨j, hj'⟩) (D := deliv (F := F) d L fo fs)
        (j := j) (u := 0) none (NR L) rfl subset_rfl hj' (Nat.zero_le _) (by unfold deliv; exact .rfl)) $$ [Htok Hrow HB]
    · isplitl [Htok]; · iexact Htok
      isplitl [Hrow]; · iexact Hrow
      iexact HB
    iintro HB
    iapply (ih (j + 1) (by omega))
    isplitl [HB]; · iexact HB
    isplitl [Hrows]; · iexact Hrows
    isplitl [Htoks]; · iexact Htoks
    iexact Hk

end Runs

end Cert.Proof.KI

end
-- ==== Proof.KIRows.lean ====
/-
  The 128 rows of a vector subcore's block, one by one. Row `k` of the block of subcore `s` of SparseCore
  `c` is row number `256 s + 128 c + k` of the 4096 x 12800 result, all its 12800 columns: the element set
  of the memref the kernel slices for it is exactly that. The block is the disjoint union of its 128 rows.
  A copy of a one-row array into such a row leaves, at column `j` of the row, the array's column `j`; and
  the scratch, filled from the flattened table through the whole-row slice read as 12800 numbers, reads
  back as the flattened table.
-/
import proofs.«213661_g87797721464909_cont_9to1_m_233_16_alg».proof.Proof.KIRowsDef
import proofs.«213661_g87797721464909_cont_9to1_m_233_16_alg».proof.Proof.KILaunchSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

namespace Rows

/-! ## A row's element set -/

/-- The elements of row `k` of the block: every index of the result whose row number is `256 s + 128 c + k`. -/
theorem set_rowM (L : grid0.Coords) (k : Fin 128) :
    (rowM L k).view.set = rowsIn {256 * (L 1).val + 128 * (L 0).val + k.val} := by
  show ((View.whole (main_v1_scv : Ref sig .scVector)).slice
      (Rect.unit (s := S4096x12800) (k0_off1 L (BitVec.ofNat 32 k.val)) S1x12800.size (k0_off1_inb L k))).set = _
  rw [View.set_slice_whole]
  ext i
  rw [Rect.mem_set_unit, mem_rowsIn, Finset.mem_singleton, k0_off1_eq L k]
  show (∀ a : Fin 2, (![256 * (L 1).val + 128 * (L 0).val + k.val, 0] : Fin 2 → ℕ) a ≤ (i a).val
      ∧ (i a).val < (![256 * (L 1).val + 128 * (L 0).val + k.val, 0] : Fin 2 → ℕ) a + (![1, 12800] : Fin 2 → ℕ) a) ↔ _
  rw [Fin.forall_fin_two]
  have h1 : (i 1).val < 12800 := (i 1).isLt
  show ((256 * (L 1).val + 128 * (L 0).val + k.val ≤ (i 0).val ∧ (i 0).val < 256 * (L 1).val + 128 * (L 0).val + k.val + 1)
      ∧ (0 ≤ (i 1).val ∧ (i 1).val < 0 + 12800)) ↔ (i 0).val = 256 * (L 1).val + 128 * (L 0).val + k.val
  omega

/-- Different rows of a block do not meet, -/
theorem rows_disjoint (L : grid0.Coords) : ∀ k ∈ (Finset.univ : Finset (Fin 128)), ∀ k' ∈ (Finset.univ : Finset (Fin 128)), k ≠ k' →
    Disjoint (rowM L k).view.set (rowM L k').view.set := by
  intro k _ k' _ h
  rw [set_rowM, set_rowM]
  exact Launch.rowsIn_disjoint (Finset.disjoint_singleton.mpr (by have := Fin.val_ne_of_ne h; omega))

/-- and together they are the block of worker `2 s + c`. -/
theorem rows_cover (L : grid0.Coords) :
    rowsIn (blockRows (2 * (L 1).val + (L 0).val)) = (Finset.univ : Finset (Fin 128)).biUnion fun k => (rowM L k).view.set := by
  ext i
  rw [mem_rowsIn, Launch.mem_blockRows, Finset.mem_biUnion]
  constructor
  · rintro ⟨h1, h2⟩
    refine ⟨⟨(i 0).val - 128 * (2 * (L 1).val + (L 0).val), by omega⟩, Finset.mem_univ _, ?_⟩
    rw [set_rowM, mem_rowsIn, Finset.mem_singleton]
    show (i 0).val = 256 * (L 1).val + 128 * (L 0).val + ((i 0).val - 128 * (2 * (L 1).val + (L 0).val))
    omega
  · rintro ⟨k, -, hk⟩
    rw [set_rowM, mem_rowsIn, Finset.mem_singleton] at hk
    have := k.isLt
    omega

end Rows

open Rows

/-- The block of worker `2 s + c`, held whole, is its 128 rows, each held through the memref the kernel slices for it. -/
theorem block_rows_big (d : Dev nD) (L : grid0.Coords) (f : Buf (Elt F) (oLoc d)) :
    (oLoc d ↦[rowsIn (blockRows (2 * (L 1).val + (L 0).val))]{fullShare} f : sProp 𝕄) = bigSep Finset.univ (fun k : Fin 128 => rowPts (F := F) d L k f) := by
  rw [rows_cover, pointsTo_biUnion Finset.univ (ℓ := oLoc d) (fun k : Fin 128 => (rowM L k).view.set) (rows_disjoint L)] <;> rfl

/-- The same as the chain of the 128 rows in order. -/
theorem block_rows (d : Dev nD) (L : grid0.Coords) (f : Buf (Elt F) (oLoc d)) :
    (oLoc d ↦[rowsIn (blockRows (2 * (L 1).val + (L 0).val))]{fullShare} f : sProp 𝕄) = rowsChain d L f := by
  rw [block_rows_big, bigSep_univ_eq_bigSepL rows128 (by decide) (by decide)]
  unfold rowsChain
  rfl

/-! ## A row after the copy of a one-row array into it -/

namespace Rows

/-- The row's memref keeps the column: element `x` of the row sits at column `x 1` of the result. -/
theorem emb_rowM_col (L : grid0.Coords) (k : Fin 128) (x : S1x12800.Idx) : (((rowM L k).view.emb x) 1).val = (x 1).val := by
  show (k0_off1 L (BitVec.ofNat 32 k.val)) 1 + 1 * (x 1).val = (x 1).val
  rw [k0_off1_eq L k]
  show 0 + 1 * (x 1).val = (x 1).val
  omega

/-- A view written whole with payload `w` holds, at the place of its element `x`, the payload at `x`. -/
theorem writes_whole_emb {κ : Kind} {sp : Space} {s : Shape} {e : EltTy} (v : View sig κ sp s e) (f : v.ty.Contents (Elt F))
    (w : s.Idx → Elt F e) (x : s.Idx) :
    v.writes (Elt F) f [⟨Rect.whole s, w⟩] (v.emb x) = cast (congrArg (Elt F) v.elt_eq.symm) (w x) := by
  rw [← View.write_univ_eq_writes_whole v f [] w, View.writes_nil]
  exact View.write_emb_of_mem f w (Finset.mem_univ x)

end Rows

/-- The row written whole with a payload that is the one-row array `fp` holds, on its own elements, what
    `rowOf d fp` holds there: column `j` of the row is `fp` at `j`. -/
theorem row_written (d : Dev nD) (L : grid0.Coords) (k : Fin 128) (fo : Buf (Elt F) (oLoc d)) (fp : Buf (Elt F) (pLoc d))
    (w : S1x12800.Idx → Elt F .f32) (hw : ∀ x, w x = fp x) :
    rowPts (F := F) d L k ((rowM L k).view.writes (Elt F) fo [⟨Rect.whole S1x12800, w⟩]) = rowPts (F := F) d L k (rowOf d fp) := by
  refine pointsTo_congr fun i hi => ?_
  obtain ⟨x, -, rfl⟩ := Finset.mem_map.mp hi
  refine (writes_whole_emb (rowM L k).view fo w x).trans ((cast_eq _ (w x)).trans ((hw x).trans ?_))
  show fp x = fp (ix2 (n0 := 1) (n1 := 12800) 0 (((rowM L k).view.emb x) 1))
  refine congrArg fp (funext fun a => ?_)
  match a with
  | ⟨0, _⟩ => exact Fin.ext (by have h0 : (x 0).val < 1 := (x 0).isLt; show (x 0).val = 0; omega)
  | ⟨1, _⟩ => exact Fin.ext (emb_rowM_col L k x).symm

/-! ## The scratch after the first copy, read whole -/

/-- The first copy reads the flattened table through the whole-row slice taken as 12800 numbers and writes the
    scratch through the same slice of the scratch: both cover their one-row buffers and place element `y` at the
    same index, so the scratch read whole is the flattened table. -/
theorem payload_eq (d : Dev nD) (L : grid0.Coords) (fp : Buf (Elt F) (pLoc d)) (fs : Buf (Elt F) ((sW).view.loc (V d (cV L) (jV L)))) (x : S1x12800.Idx) :
    ReadAs.same.apply (View.read (Elt F) sW.view (View.write (Elt F) ((sW.slice (Rect.unit (s := S1x12800) ![0, 0] S1x12800.size Facts₀.inb_S1x12800_S1x12800_0_0) (fun _ => rfl)).squeeze S12800 Facts₀.squeezes_S1x12800_S12800).view fs
        (ReadAs.same.apply (View.read (Elt F) ((pW.slice (Rect.unit (s := S1x12800) ![0, 0] S1x12800.size Facts₀.inb_S1x12800_S1x12800_0_0) (fun _ => rfl)).squeeze S12800 Facts₀.squeezes_S1x12800_S12800).view fp)) Finset.univ)) x = fp x := by
  have hx : x ∈ ((sW.slice (Rect.unit (s := S1x12800) ![0, 0] S1x12800.size Facts₀.inb_S1x12800_S1x12800_0_0) (fun _ => rfl)).squeeze S12800 Facts₀.squeezes_S1x12800_S12800).view.set := by
    rw [show ((sW.slice (Rect.unit (s := S1x12800) ![0, 0] S1x12800.size Facts₀.inb_S1x12800_S1x12800_0_0) (fun _ => rfl)).squeeze S12800 Facts₀.squeezes_S1x12800_S12800).view.set
        = ((View.whole (cc0_scratch0 : Ref sig .scVector)).slice (Rect.unit (s := S1x12800) ![0, 0] S1x12800.size Facts₀.inb_S1x12800_S1x12800_0_0)).set from View.set_reshape _ _,
      View.set_slice_whole]
    refine Rect.mem_set_unit.mpr ?_
    show ∀ a : Fin 2, (![0, 0] : Fin 2 → ℕ) a ≤ (x a).val ∧ (x a).val < (![0, 0] : Fin 2 → ℕ) a + (![1, 12800] : Fin 2 → ℕ) a
    rw [Fin.forall_fin_two]
    have h0 : (x 0).val < 1 := (x 0).isLt
    have h1 : (x 1).val < 12800 := (x 1).isLt
    exact ⟨⟨Nat.zero_le _, by show (x 0).val < 0 + 1; omega⟩, ⟨Nat.zero_le _, by show (x 1).val < 0 + 12800; omega⟩⟩
  obtain ⟨y, -, rfl⟩ := Finset.mem_map.mp hx
  exact View.write_emb_of_mem (v := ((sW.slice (Rect.unit (s := S1x12800) ![0, 0] S1x12800.size Facts₀.inb_S1x12800_S1x12800_0_0) (fun _ => rfl)).squeeze S12800 Facts₀.squeezes_S1x12800_S12800).view) fs
    (ReadAs.same.apply (View.read (Elt F) ((pW.slice (Rect.unit (s := S1x12800) ![0, 0] S1x12800.size Facts₀.inb_S1x12800_S1x12800_0_0) (fun _ => rfl)).squeeze S12800 Facts₀.squeezes_S1x12800_S12800).view fp))
    (Finset.mem_univ y)

end Cert.Proof.KI

end
-- ==== Proof.KITile.lean ====
/-
  A vector subcore's task, proved: its scratch filled with the flattened table, its 128 rows written
  with the scratch and handed back, its scoped storage and semaphores as they were.
-/
import proofs.«213661_g87797721464909_cont_9to1_m_233_16_alg».proof.Proof.KICommon
import proofs.«213661_g87797721464909_cont_9to1_m_233_16_alg».proof.Proof.KIFold
import proofs.«213661_g87797721464909_cont_9to1_m_233_16_alg».proof.Proof.KIRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Waits

variable [FloatOps F] (d : Dev nD) (L : grid0.Coords)

local notation "tV" => V d (cV L) (jV L)
local notation "smO" => SemLoc.dma (sig := sig) cc0_scratch1.sem
local notation "WP" => wp frame (wpE (defs₀ (F := F)) 𝒱₀ (V d (cV L) (jV L)) none) Set.univ

/-- A wait recorded `n` times over. -/
def insN (x : SemLoc sig × HIx 1) : ℕ → Waits sig (HIx 1) → Waits sig (HIx 1)
  | 0, W => W
  | n + 1, W => insN x n (insert x W)

omit [FloatOps F] in
theorem mem_insN {x : SemLoc sig × HIx 1} : ∀ (n : ℕ) (W : Waits sig (HIx 1)) (p : SemLoc sig × HIx 1), p ∈ insN x n W → p ∈ W ∨ p = x := by
  intro n
  induction n with
  | zero => intro W p h; exact .inl h
  | succ n ih =>
    intro W p h
    rcases ih (insert x W) p h with h | h
    · rcases Finset.mem_insert.mp h with h | h
      · exact .inr h
      · exact .inl h
    · exact .inr h

/-- The waits `j … 126`: each consumes one row's worth and returns nothing. -/
theorem wait_phase (fo : Buf (Elt F) (oLoc d)) (fs : Buf (Elt F) ((sW).view.loc tV)) (O : CellTallies nD τ sig (HIx 1))
    (tl : List (Prog (TpuEff nD τ sig (Elt F) Λ₀ (Thr L)) PUnit)) (Q : PUnit → sProp 𝕄) :
    ∀ (n j : ℕ) (W : Waits sig (HIx 1)), j + n = 127 →
      iprop(Transfers.MayWaits tV (none : HIx 1) O
          ∗ Transfers.Batch (EC (F := F)) tV smO none (NR L) (deliv (F := F) d L fo fs) 128 (j * NR L) ∗ owes tV O W
          ∗ (iprop(Transfers.Batch (EC (F := F)) tV smO none (NR L) (deliv (F := F) d L fo fs) 128 (127 * NR L) ∗ owes tV O (insN (smO, none) n W))
              -∗ WP (seqP tl) Q))
        ⊢ WP (seqP (waitsFrom (F := F) L j n ++ tl)) Q := by
  intro n
  induction n with
  | zero =>
    intro j W hj
    obtain rfl : j = 127 := by omega
    iintro ⟨-, HB, HO, Hk⟩
    iapply Hk
    isplitl [HB]; · iexact HB
    iexact HO
  | succ n ih =>
    intro j W hj
    have hj' : j < 128 := by omega
    have hu : j * NR L + NR L < NR L * 128 := by
      have := NR_pos L
      nlinarith
    simp only [waitsFrom, dif_pos hj', List.cons_append]
    show _ ⊢ WP (waitP (F := F) L ⟨j, hj'⟩ >>= fun _ => seqP (waitsFrom (F := F) L (j + 1) n ++ tl)) Q
    unfold waitP
    simp only [Prog.lift, Prog.bind_op, Prog.bind_ret]
    iintro ⟨#Hmw, HB, HO, Hk⟩
    ihave Hm1 := (Transfers.MayWaits.elim (c := tV) (ι := (none : HIx 1)) (O := O) smO) $$ Hmw
    iapply (Transfers.wp_waitBatchO (EC (F := F)) 𝒱₀ tV none (srcw := sW) (dstw := rowM L ⟨j, hj'⟩) none (N := NR L) rfl
        (D := deliv (F := F) d L fo fs) (u := j * NR L) hu (O := O) (W := W)) $$ [HB HO Hm1]
    · isplitl [HB]; · iexact HB
      isplitl [HO]; · iexact HO
      iexact Hm1
    iintro ⟨HB, HO⟩
    iapply (ih (j + 1) (insert (smO, none) W) (by omega))
    isplitr; · iexact Hmw
    isplitl [HB]; · rw [Nat.succ_mul]; iexact HB
    isplitl [HO]; · iexact HO
    iexact Hk

end Waits

section Tile

variable (d : Dev nD) (L : grid0.Coords)

abbrev cSync (d : Dev nD) (c : Fin τ.nSC) (i : Fin τ.nSub) : GSem nD τ sig := (V d c i, .dma cc0_scoped0.sem)
abbrev cOut (d : Dev nD) (c : Fin τ.nSC) (i : Fin τ.nSub) : GSem nD τ sig := (V d c i, .dma cc0_scratch1.sem)

theorem ownSems0_V :
    (ownSems0 (V d (cV L) (jV L)) : sProp 𝕄)
      = iprop(semVal (cSync d (cV L) (jV L)) 0 ∗ semVal (cOut d (cV L) (jV L)) 0
          ∗ bigSep (((ownCells (V d (cV L) (jV L))).erase (cSync d (cV L) (jV L))).erase (cOut d (cV L) (jV L))) fun g => semVal g 0) := by
  unfold SparseCore.Cfg.ownSems0
  rw [SparseCore.bigSep_erase' ((mem_ownCells (g := cSync d (cV L) (jV L))).mpr ⟨rfl, by
      show (SemLoc.dma cc0_scoped0.sem : SemLoc sig).isScoped .scVector = true; decide⟩),
    SparseCore.bigSep_erase' (Finset.mem_erase.mpr ⟨by simp [cSync, cOut]; decide, (mem_ownCells (g := cOut d (cV L) (jV L))).mpr ⟨rfl, by
      show (SemLoc.dma cc0_scratch1.sem : SemLoc sig).isScoped .scVector = true; decide⟩⟩)]

theorem ownBufs_V :
    (ownBufs (V d (cV L) (jV L)) : sProp 𝕄)
      = iprop((∃ f, (sW).view.loc (V d (cV L) (jV L)) ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

theorem pts_s_set (q : PosShare TreeShare) (f : Buf (Elt F) ((sW).view.loc (V d (cV L) (jV L)))) :
    ((sW).view.loc (V d (cV L) (jV L)) ↦[(sW).view.set]{q} f : sProp 𝕄) = ((sW).view.loc (V d (cV L) (jV L)) ↦{q} f) := by
  simp only [Memref.view_whole, View.set_whole]

variable [FloatOps F]

local notation "tV" => V d (cV L) (jV L)
local notation "smO" => SemLoc.dma (sig := sig) cc0_scratch1.sem
local notation "WP" => wp frame (wpE (defs₀ (F := F)) 𝒱₀ (V d (cV L) (jV L)) none) Set.univ

/-- All 128 deliveries: the rows written, and the read shares of the scratch. -/
theorem deliv_all (fo : Buf (Elt F) (oLoc d)) (fs : Buf (Elt F) ((sW).view.loc tV)) :
    bigSep Finset.univ (deliv (F := F) d L fo fs)
      = iprop(bigSep Finset.univ (fun k : Fin 128 => rowPts (F := F) d L k ((rowM L k).view.write (Elt F) fo (ReadAs.same.apply ((sW).view.read (Elt F) fs)) Finset.univ))
          ∗ bigSep Finset.univ (fun k : Fin 128 => tokS (F := F) d L k fs)) := by
  unfold deliv; rw [bigSep_sep']

/-- A row written whole with a payload that is the one-row array `fp` holds `fp` at every column. -/
theorem row_done (k : Fin 128) (fo : Buf (Elt F) (oLoc d)) (fp : Buf (Elt F) (pLoc d)) (w : S1x12800.Idx → Elt F .f32) (hw : ∀ x, w x = fp x) :
    rowPts (F := F) d L k ((rowM L k).view.write (Elt F) fo w Finset.univ) = rowPts (F := F) d L k (rowOf d fp) := by
  rw [show (rowM L k).view.write (Elt F) fo w Finset.univ = (rowM L k).view.writes (Elt F) fo [⟨Rect.whole S1x12800, w⟩] from
    View.write_univ_eq_writes_whole (rowM L k).view fo [] w]
  exact row_written d L k fo fp w hw

theorem tile_body (hF : (K (F := F)).Facts) (O : CellTallies nD τ sig (HIx 1)) (W : Waits sig (HIx 1)) (hO : ∀ g, O g none = 0)
    (q : PosShare TreeShare) (fp : Buf (Elt F) (pLoc d)) (fo : Buf (Elt F) (oLoc d)) :
    iprop(levAts (K (F := F)).L (K (F := F)).lev ∗ emp
        ∗ (((pW).view.loc tV ↦{q} fp) ∗ bigSep Finset.univ (fun k : Fin 128 => rowPts (F := F) d L k fo))
        ∗ scopedBufs tV ∗ scopedSems0 tV ∗ owes tV O W)
      ⊢ WP (cc0_sc_bcast L pW (Memref.isWhole_whole _) oW (Memref.isWhole_whole _) sW (Memref.isWhole_whole _) cc0_scratch1 cc0_scoped0)
          fun _ => iprop((((pW).view.loc tV ↦{q} fp) ∗ bigSep Finset.univ (fun k : Fin 128 => rowPts (F := F) d L k (rowOf d fp)))
            ∗ scopedBufs tV ∗ scopedSems0 tV ∗ ∃ W', ⌜∀ p ∈ W', p ∈ W ∨ p.2 = none⌝ ∗ owes tV O W') := by
  rw [body_eq]; unfold bodyP
  rw [(K (F := F)).scopedBufs_V hF d (cV L) (jV L), SparseCore.Cfg.scopedSems0_V (Val := Elt F) d (cV L) (jV L), ownSems0_V, ownBufs_V]
  iintro ⟨#Hlv, -, ⟨Hp, Hrows⟩, ⟨⟨%fs, Hs⟩, Hbufs⟩, ⟨HsemS, HsemO, Hsems⟩, HO⟩
  ihave Hmw := ((K (F := F)).mayWaits_none (thr := V d (cV L) (jV L)) hO) $$ Hlv
  generalize hrest : tailP (F := F) L = rest
  sl_exec
  subst hrest
  unfold tailP
  unfold tile_body.sl.dma0
  generalize hfs1 : View.write (Elt F) (sRow).view fs (ReadAs.same.apply (View.read (Elt F) (pRow).view fp)) Finset.univ = fs1
  -- the output semaphore's counter becomes the batch of 128 copies, none started
  imod (Transfers.batch_alloc' (EC (F := F)) tV none (NR L) (deliv (F := F) d L fo fs1) (sm := smO) (E := Set.univ)) $$ [HsemO] with HB
  · iexact HsemO
  -- the scratch, whole, as 128 read shares and a remainder
  ihave Hs' := (Entails.of_eq (pts_s_set (F := F) d L fullShare fs1).symm) $$ [Hs]
  · iexact Hs
  ihave Ht := (Transfers.pointsTo_toks_split fullShare 128) $$ [Hs']
  · iexact Hs'
  icases Ht with ⟨Hsrem, Htoks⟩
  ihave Hrows' := (Entails.of_eq (Transfers.bigSep_pending_zero (n := 128) _)) $$ [Hrows]
  · iexact Hrows
  ihave Htoks' := (Entails.of_eq (Transfers.bigSep_pending_zero (n := 128) _)) $$ [Htoks]
  · iexact Htoks
  iapply (issue_phase (F := F) d L fo fs1 _ _ 128 0 rfl) $$ [HB Hrows' Htoks' Hp Hsrem HsemS HO Hbufs Hsems]
  isplitl [HB]; · iexact HB
  isplitl [Hrows']; · iexact Hrows'
  isplitl [Htoks']; · iexact Htoks'
  iintro HB
  iapply (wait_phase (F := F) d L fo fs1 O [waitP (F := F) L 127] _ 127 0 _ rfl) $$ [HB Hp Hsrem HsemS HO Hbufs Hsems]
  isplitr; · iexact Hmw
  isplitl [HB]; · rw [Nat.zero_mul]; iexact HB
  isplitl [HO]; · iexact HO
  iintro ⟨HB, HO⟩
  simp only [seqP]
  unfold waitP
  simp only [Prog.lift, Prog.bind_op, Prog.bind_ret]
  ihave Hm1 := (Transfers.MayWaits.elim (c := V d (cV L) (jV L)) (ι := (none : HIx 1)) (O := O) smO) $$ Hmw
  iapply (Transfers.wp_waitBatchLastO (EC (F := F)) 𝒱₀ tV none (srcw := sW) (dstw := rowM L 127) none (N := NR L) rfl (NR_pos L)
      (D := deliv (F := F) d L fo _) (u := 127 * NR L) (by ring) (O := O)) $$ [HB HO Hm1]
  · isplitl [HB]; · iexact HB
    isplitl [HO]; · iexact HO
    iexact Hm1
  iintro ⟨HD, HsemO, HO⟩
  -- every row written and every read share back; the scratch whole again
  ihave HD' := (Entails.of_eq (deliv_all (F := F) d L fo fs1)) $$ [HD]
  · iexact HD
  icases HD' with ⟨Hrows, Htoks⟩
  ihave Hs := (Transfers.pointsTo_toks_join fullShare 128) $$ [Hsrem Htoks]
  · isplitl [Hsrem]; · iexact Hsrem
    iexact Htoks
  ihave Hs' := (Entails.of_eq (pts_s_set (F := F) d L fullShare fs1)) $$ [Hs]
  · iexact Hs
  -- what was copied is the table's row: the scratch was filled with it and is read whole
  have hw : ∀ x, ReadAs.same.apply ((sW).view.read (Elt F) fs1) x = fp x := by
    intro x; rw [← hfs1]; exact payload_eq d L fp fs x
  ihave Hrows' := (Entails.of_eq (bigSep_congr fun k _ => row_done (F := F) d L k fo fp _ hw)) $$ [Hrows]
  · iexact Hrows
  sl_step
  isplitl [Hp Hrows']
  · isplitl [Hp]; · iexact Hp
    iexact Hrows'
  isplitl [Hs' Hbufs]
  · isplitl [Hs']; · iexists _; iexact Hs'
    iexact Hbufs
  isplitl [HsemS HsemO Hsems]
  · isplitl [HsemS]; · iexact HsemS
    isplitl [HsemO]; · iexact HsemO
    iexact Hsems
  iexists (insert (smO, (none : HIx 1)) (insN (smO, (none : HIx 1)) 127 (insert (SemLoc.dma cc0_scoped0.sem, (default : HIx 1)) W)))
  isplitr
  · ipureintro
    intro p hp
    rcases Finset.mem_insert.mp hp with rfl | hp
    · exact .inr rfl
    rcases mem_insN _ _ _ hp with hp | rfl
    · rcases Finset.mem_insert.mp hp with rfl | hp
      · exact .inr rfl
      · exact .inl hp
    · exact .inr rfl
  · iexact HO

end Tile

/-! ## The launch theorem's obligation -/

section Obl

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_bcast (coordsV c s)
          pW (Memref.isWhole_whole _) oW (Memref.isWhole_whole _) sW (Memref.isWhole_whole _) cc0_scratch1 cc0_scoped0) ⟨⟩ c s := rfl

variable (m : (ℓ : Loc nD τ sig) → Buf (Elt F) ℓ)

/-- What a task is handed, as its proof takes it: the table's read share, and its block row by row. -/
theorem go_eq (d : Dev nD) (c : Fin ((K (F := F)).nCore 0)) (i : Fin ((K (F := F)).nSub 0))
    (hc : ((K (F := F)).core 0 c).val < grid0.bound 0) (hi : ((K (F := F)).sub 0 i).val < grid0.bound 1) :
    (P (F := F) m).go 0 d c i
      = iprop(((pW).view.loc (V d (cV (coordsV ⟨_, hc⟩ ⟨_, hi⟩)) (jV (coordsV ⟨_, hc⟩ ⟨_, hi⟩))) ↦{qT c.val i.val} flat m d)
          ∗ bigSep Finset.univ (fun k : Fin 128 => rowPts (F := F) d (coordsV ⟨_, hc⟩ ⟨_, hi⟩) k (m (oLoc d)))) := by
  rw [← block_rows_big]
  rfl

/-- What it hands back: the share, and its block, every row the flattened table. -/
theorem td_eq (d : Dev nD) (c : Fin ((K (F := F)).nCore 0)) (i : Fin ((K (F := F)).nSub 0))
    (hc : ((K (F := F)).core 0 c).val < grid0.bound 0) (hi : ((K (F := F)).sub 0 i).val < grid0.bound 1) :
    (P (F := F) m).td 0 d c i
      = iprop(((pW).view.loc (V d (cV (coordsV ⟨_, hc⟩ ⟨_, hi⟩)) (jV (coordsV ⟨_, hc⟩ ⟨_, hi⟩))) ↦{qT c.val i.val} flat m d)
          ∗ bigSep Finset.univ (fun k : Fin 128 => rowPts (F := F) d (coordsV ⟨_, hc⟩ ⟨_, hi⟩) k (rowOf d (flat m d)))) := by
  rw [← block_rows_big, rowOf_flat]
  rfl

theorem tileObl : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have key := tile_body (F := F) d (coordsV ⟨_, hc.1⟩ ⟨_, hc.2⟩) facts O W hO (qT c.val i.val) (flat m d) (m (oLoc d))
  rw [go_eq m d c i hc.1 hc.2, td_eq m d c i hc.1 hc.2]
  refine key.trans (wp_mono frame _ _ fun _ => ?_)
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Obl

end Cert.Proof.KI

end
-- ==== Proof.RefTerm.lean ====
/-
  The reference program's result as ONE pure term of the position table. The program numbers the positions
  of a row (an iota over the 200 positions, copied to each of the 4096 batch rows), and looks the table up
  at those numbers: an index below zero would be moved up by 200, the table's rows are gathered at the
  indices, and a result entry whose index fell outside the range 0 to 199 would be replaced by a fill
  value. The definitions below name the stages of that computation, each as the operations' own
  composition, so that the run of the program can be stated against them and their value read off
  separately.
-/
import proofs.«213661_g87797721464909_cont_9to1_m_233_16_alg».proof.Proof.Gen.ReferenceIdeal

noncomputable section

namespace Cert.ReferenceIdeal.RefRun

open Idealize.ShloMosaic Cert.ReferenceIdeal Cert.ReferenceIdeal.Facts₀

/-- The position numbers: entry `(b, s)` is the word `s`. -/
def posIds : IVec S4096x200 32 :=
  broadcastInDim S4096x200 ![0, 1] bcast_S1x200_S4096x200_0_1
    (broadcastInDim S1x200 ![1] bcast_S200_S1x200_1 (iotaInDim S200 32 0))

/-- An index below zero is moved up by the table's 200 rows; any other index is kept. -/
def wrapIdx (p : IVec S4096x200 32) : IVec S4096x200 32 :=
  select (cmpi .slt p (broadcastInDim S4096x200 ![] bcast_S_S4096x200 (constantI S_ 32 0#32)))
    (addi p (broadcastInDim S4096x200 ![] bcast_S_S4096x200 (constantI S_ 32 200#32))) p

/-- The indices as start indices of the lookup: a trailing axis of extent one. -/
def startIdx (p : IVec S4096x200 32) : IVec S4096x200x1 32 :=
  broadcastInDim S4096x200x1 ![0, 1] bcast_S4096x200_S4096x200x1_0_1 (wrapIdx p)

/-- Whether a start index lies in the range 0 to 199, component by component. -/
def inRange (p : IVec S4096x200 32) : IVec S4096x200x1 1 :=
  andi (cmpi .sge (startIdx p) (broadcastInDim S4096x200x1 ![] bcast_S_S4096x200x1 (constantI S_ 32 0#32)))
    (cmpi .sle (startIdx p) (broadcastInDim S4096x200x1 ![0, 1, 2] bcast_S1x1x1_S4096x200x1_0_1_2
      (broadcastInDim S1x1x1 ![2] bcast_S1_S1x1x1_2 (constantI S1 32 199#32))))

/-- Whether every component of a start index lies in range: the conjunction over the trailing axis. -/
def allInRange (p : IVec S4096x200 32) : IVec S4096x200 1 :=
  Host.reduce IntOp.andi (inRange p) (constantI S_ 1 1#1) reducesTo_S4096x200x1_S4096x200_d2 h_S_

/-- The rows of the table at the start indices. -/
def rowsAt {α : Type} (pe : S200x64.Idx → α) (p : IVec S4096x200 32) : S4096x200x64.Idx → α :=
  Host.gather gather_S200x64_S4096x200x1_S4096x200x64_2_0_n_n_0_2_164 pe (startIdx p)

/-- The lookup: the gathered row where the index is in range, the fill value elsewhere. -/
def takeAt {α : Type} (fill : S4096x200x64.Idx → α) (pe : S200x64.Idx → α) (p : IVec S4096x200 32) : S4096x200x64.Idx → α :=
  select (broadcastInDim S4096x200x64 ![0, 1] bcast_S4096x200_S4096x200x64_0_1 (allInRange p)) (rowsAt pe p) fill

variable {F : FTy → Type} [FloatOps F]

/-- The fill value of the lookup: one float constant at every entry. -/
def fill : (⟨S4096x200x64, .f32⟩ : BufTy).Contents (Elt F) :=
  broadcastInDim S4096x200x64 ![] bcast_S_S4096x200x64 (constant (F := F) S_ .f32 0x7FC00000#32)

/-- The reference's result as a term of the table. -/
def refTerm (pe : (⟨S200x64, .f32⟩ : BufTy).Contents (Elt F)) : (⟨S4096x200x64, .f32⟩ : BufTy).Contents (Elt F) :=
  takeAt (fill (F := F)) pe posIds

end Cert.ReferenceIdeal.RefRun

end
-- ==== Proof.RefOps.lean ====
/-
  The reference program's run. The program is a straight line of twenty-six tensor operations: three of its
  own (the iota over the positions and its two copies into the batch rows) and the twenty-three of the lookup
  function it calls, which itself calls a three-way selection. Listed in order over the buffers each call
  names, the program is that list run in sequence; every weakly fair execution then terminates with each
  buffer at the fold of the operations' results over the launch contents. Read at the result buffer, the
  fold is the term `refTerm` of the table's launch contents; read at an argument buffer, which no operation
  writes, it is the launch contents.
-/
import proofs.«213661_g87797721464909_cont_9to1_m_233_16_alg».proof.Proof.RefTerm
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The program's operations in order, the calls unfolded: the three of the program itself, then the lookup's —
    the zero and its copy, the test for a negative index, the 200 and its copy, the sum, the selection (the one
    operation of the function the lookup calls), the indices with a trailing axis, the bounds 199 and 0 and
    their copies with the two comparisons between them, the conjunction, the initial value and the reduction
    over the trailing axis, the gather, the mask copied along the rows' entries, the fill constant and its copy,
    and the final selection into the result buffer. -/
abbrev ops : List (HloOp τ sig (Elt F)) :=
  [ nullary main_v0 (iotaInDim S200 32 0),
    unary main_v0 main_v1 (broadcastInDim S1x200 ![1] bcast_S200_S1x200_1 : (⟨S200, .i32⟩ : BufTy).Contents (Elt F) → (⟨S1x200, .i32⟩ : BufTy).Contents (Elt F)),
    unary main_v1 main_v2 (broadcastInDim S4096x200 ![0, 1] bcast_S1x200_S4096x200_0_1 : (⟨S1x200, .i32⟩ : BufTy).Contents (Elt F) → (⟨S4096x200, .i32⟩ : BufTy).Contents (Elt F)),
    TRef.nullary main_call0.c (constantI S_ 32 0#32),
    TRef.unary main_call0.c main_call0.v0 (broadcastInDim S4096x200 ![] bcast_S_S4096x200),
    TRef.binary (.of main_v2) main_call0.v0 main_call0.v1 (cmpi .slt),
    TRef.nullary main_call0.c_0 (constantI S_ 32 200#32),
    TRef.unary main_call0.c_0 main_call0.v2 (broadcastInDim S4096x200 ![] bcast_S_S4096x200),
    TRef.binary (.of main_v2) main_call0.v2 main_call0.v3 addi,
    TRef.ternary main_call0.v1 main_call0.v3 (.of main_v2) main_call0.call0.v0 select,
    TRef.unary main_call0.call0.v0 main_call0.v5 (broadcastInDim S4096x200x1 ![0, 1] bcast_S4096x200_S4096x200x1_0_1),
    TRef.nullary main_call0.c_1 (constantI S1 32 199#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S200x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ]

-- twenty-six binds re-associated: the rewrite under the chain recurses once per statement
set_option maxRecDepth 1024 in
/-- The program is that straight line: the two functions' definitions unfolded at their calls, both sides are one
    chain of operation steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub ..⟩

/-- On every device, from any memory with zero counters: every weakly fair execution of the program terminates,
    and every final state has each buffer at the fold of the operations' results over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefFold.lean ====
/-
  The fold of the reference's operations, read at three buffers. The operations were listed over the typed
  references the two functions are stated with; at these literal buffers a typed reference's transport of
  contents is the identity, so the list is the same list with every operation stated directly over its buffers
  (`ops_eq`). Over that spelling the fold at a buffer is a computation: each operation's result at its own
  buffer is its function's value of the contents of the buffers it reads, and at any other buffer what was
  there. At the result buffer this gives the term `refTerm` of the table's contents; the two argument buffers
  are written by no operation.
-/
import proofs.«213661_g87797721464909_cont_9to1_m_233_16_alg».proof.Proof.RefOps

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The same twenty-six operations, each stated directly over its buffers. -/
abbrev opsU : List (HloOp τ sig (Elt F)) :=
  [ nullary main_v0 (iotaInDim S200 32 0),
    unary main_v0 main_v1 (broadcastInDim S1x200 ![1] bcast_S200_S1x200_1 : (⟨S200, .i32⟩ : BufTy).Contents (Elt F) → (⟨S1x200, .i32⟩ : BufTy).Contents (Elt F)),
    unary main_v1 main_v2 (broadcastInDim S4096x200 ![0, 1] bcast_S1x200_S4096x200_0_1 : (⟨S1x200, .i32⟩ : BufTy).Contents (Elt F) → (⟨S4096x200, .i32⟩ : BufTy).Contents (Elt F)),
    nullary main_call0_c (constantI S_ 32 0#32 : (⟨S_, .i32⟩ : BufTy).Contents (Elt F)),
    unary main_call0_c main_call0_v0 (broadcastInDim S4096x200 ![] bcast_S_S4096x200 : (⟨S_, .i32⟩ : BufTy).Contents (Elt F) → (⟨S4096x200, .i32⟩ : BufTy).Contents (Elt F)),
    binary main_v2 main_call0_v0 main_call0_v1 (cmpi .slt : (⟨S4096x200, .i32⟩ : BufTy).Contents (Elt F) → (⟨S4096x200, .i32⟩ : BufTy).Contents (Elt F) → (⟨S4096x200, .i1⟩ : BufTy).Contents (Elt F)),
    nullary main_call0_c_0 (constantI S_ 32 200#32 : (⟨S_, .i32⟩ : BufTy).Contents (Elt F)),
    unary main_call0_c_0 main_call0_v2 (broadcastInDim S4096x200 ![] bcast_S_S4096x200 : (⟨S_, .i32⟩ : BufTy).Contents (Elt F) → (⟨S4096x200, .i32⟩ : BufTy).Contents (Elt F)),
    binary main_v2 main_call0_v2 main_call0_v3 (addi : (⟨S4096x200, .i32⟩ : BufTy).Contents (Elt F) → (⟨S4096x200, .i32⟩ : BufTy).Contents (Elt F) → (⟨S4096x200, .i32⟩ : BufTy).Contents (Elt F)),
    ternary main_call0_v1 main_call0_v3 main_v2 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)),
    nullary main_call0_c_1 (constantI S1 32 199#32 : (⟨S1, .i32⟩ : BufTy).Contents (Elt F)),
    nullary main_call0_c_2 (constantI S_ 32 0#32 : (⟨S_, .i32⟩ : BufTy).Contents (Elt F)),
    unary main_call0_c_2 main_call0_v6 (broadcastInDim S4096x200x1 ![] bcast_S_S4096x200x1 : (⟨S_, .i32⟩ : BufTy).Contents (Elt F) → (⟨S4096x200x1, .i32⟩ : BufTy).Contents (Elt F)),
    binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S4096x200x1_S4096x200_d2 h_S_) : (⟨S4096x200x1, .i1⟩ : BufTy).Contents (Elt F) → (⟨S_, .i1⟩ : BufTy).Contents (Elt F) → (⟨S4096x200, .i1⟩ : BufTy).Contents (Elt F)),
    binary main_arg1 main_call0_v5 main_call0_v13 ((fun x i => Host.gather gather_S200x64_S4096x200x1_S4096x200x64_2_0_n_n_0_2_164 x i) : (⟨S200x64, .f32⟩ : BufTy).Contents (Elt F) → (⟨S4096x200x1, .i32⟩ : BufTy).Contents (Elt F) → (⟨S4096x200x64, .f32⟩ : BufTy).Contents (Elt F)),
    unary main_call0_v12 main_call0_v14 (broadcastInDim S4096x200x64 ![0, 1] bcast_S4096x200_S4096x200x64_0_1 : (⟨S4096x200, .i1⟩ : BufTy).Contents (Elt F) → (⟨S4096x200x64, .i1⟩ : BufTy).Contents (Elt F)),
    nullary main_call0_cst (constant S_ .f32 0x7FC00000#32 : (⟨S_, .f32⟩ : BufTy).Contents (Elt F)),
    unary main_call0_cst main_call0_v15 (broadcastInDim S4096x200x64 ![] bcast_S_S4096x200x64 : (⟨S_, .f32⟩ : BufTy).Contents (Elt F) → (⟨S4096x200x64, .f32⟩ : BufTy).Contents (Elt F)),
    ternary main_call0_v14 main_call0_v13 main_call0_v15 main_v3 (select : (⟨S4096x200x64, .i1⟩ : BufTy).Contents (Elt F) → (⟨S4096x200x64, .f32⟩ : BufTy).Contents (Elt F) → (⟨S4096x200x64, .f32⟩ : BufTy).Contents (Elt F) → (⟨S4096x200x64, .f32⟩ : BufTy).Contents (Elt F)) ]

-- the reduction and the gather are kept folded: the equation compares their operands, never their bodies
attribute [local irreducible] Host.reduce Host.gather in
/-- At these literal buffers the typed references' transports are the identity: the two lists are one. -/
theorem ops_eq : (ops : List (HloOp τ sig (Elt F))) = opsU := rfl

/-- The fold at the result buffer is the term `refTerm` of the table's contents. -/
theorem out_eq (V : Valuation τ sig (Elt F)) :
    after ops V (main_v3 : DevRef τ sig) = refTerm (V (main_arg1 : DevRef τ sig)) := by
  rw [ops_eq]
  unfold refTerm takeAt rowsAt allInRange inRange startIdx wrapIdx posIds fill
  after_results_simp

/-- No operation writes the first argument's buffer … -/
theorem arg0_eq (V : Valuation τ sig (Elt F)) :
    after ops V (main_arg0 : DevRef τ sig) = V (main_arg0 : DevRef τ sig) := by
  rw [ops_eq]
  after_results_simp

/-- … nor the table's. -/
theorem arg1_eq (V : Valuation τ sig (Elt F)) :
    after ops V (main_arg1 : DevRef τ sig) = V (main_arg1 : DevRef τ sig) := by
  rw [ops_eq]
  after_results_simp

end Cert.ReferenceIdeal.RefRun

end
-- ==== Proof.RefValue.lean ====
/-
  The value of the reference's result term: entry `(b, s, d)` is entry `(s, d)` of the table.
  The position number at `(b, s)` is the word `s`, and `s < 200 < 2^31`: read signed it is `s` itself, so it is
  not negative (the index is kept as it is), it lies between 0 and 199 (the range test holds at every
  component, hence so does the conjunction over the trailing axis), and clamping it into 0..199 changes
  nothing: the gather reads row `s` of the table, entry `d` of it, and the selection keeps that.
-/
import proofs.«213661_g87797721464909_cont_9to1_m_233_16_alg».proof.Proof.RefTerm
import proofs.«213661_g87797721464909_cont_9to1_m_233_16_alg».proof.Proof.Spec
import Idealize.ShloMosaic.Lib.ValueIdx
import Idealize.ShloMosaic.Lib.ReduceAll
import Idealize.ShloMosaic.Lib.Pipeline.Value

noncomputable section

namespace Cert.ReferenceIdeal.RefRun

open Idealize.ShloMosaic Idealize.ShloMosaic.ValueIdx Cert.ReferenceIdeal Cert.ReferenceIdeal.Facts₀

/-! ## The words -/

/-- A position below 200, as a 32-bit word read signed, is the position. -/
theorem toInt_pos (s : Fin 200) : (BitVec.ofNat 32 s.val).toInt = (s.val : Int) := by
  revert s; decide

/-- It is not below zero … -/
theorem slt_zero (s : Fin 200) : IntOp.cmpi .slt (BitVec.ofNat 32 s.val) 0#32 = 0#1 := by
  revert s; decide

/-- … it is at least zero … -/
theorem sge_zero (s : Fin 200) : IntOp.cmpi .sge (BitVec.ofNat 32 s.val) 0#32 = 1#1 := by
  revert s; decide

/-- … and at most 199. -/
theorem sle_last (s : Fin 200) : IntOp.cmpi .sle (BitVec.ofNat 32 s.val) 199#32 = 1#1 := by
  revert s; decide

/-- A conjunction of ones, started at one, is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-! ## The stages at an index -/

/-- The position number at `(b, s)` is the word `s`. -/
theorem posIds_apply (b : Fin 4096) (s : Fin 200) : posIds (ix2 b s) = BitVec.ofNat 32 s.val := rfl

/-- A position number is not negative: it is kept. -/
theorem wrapIdx_apply (b : Fin 4096) (s : Fin 200) : wrapIdx posIds (ix2 b s) = BitVec.ofNat 32 s.val := by
  show Scalar.select (IntOp.cmpi .slt (posIds (ix2 b s)) 0#32) (IntOp.addi (posIds (ix2 b s)) 200#32) (posIds (ix2 b s)) = _
  rw [posIds_apply, slt_zero, select_zero]

/-- The start index at `(b, s, 0)` is the word `s`. -/
theorem startIdx_apply (b : Fin 4096) (s : Fin 200) (k : Fin 1) : startIdx posIds (ix3 b s k) = BitVec.ofNat 32 s.val := by
  unfold startIdx
  refine (broadcastInDim_apply _ _ _ (ix3 b s k) (ix2 b s) (fun a => match a with | ⟨0, _⟩ => rfl | ⟨1, _⟩ => rfl)).trans ?_
  exact wrapIdx_apply b s

/-- Every start index is in range. -/
theorem inRange_apply (i : S4096x200x1.Idx) : inRange posIds i = 1#1 := by
  obtain ⟨b, s, k, rfl⟩ : ∃ (b : Fin 4096) (s : Fin 200) (k : Fin 1), i = ix3 b s k := ⟨i 0, i 1, i 2, eq_ix3 i⟩
  show IntOp.andi (IntOp.cmpi .sge (startIdx posIds (ix3 b s k)) 0#32) (IntOp.cmpi .sle (startIdx posIds (ix3 b s k)) 199#32) = 1#1
  rw [startIdx_apply, sge_zero, sle_last]
  rfl

/-- So the conjunction over the trailing axis holds everywhere. -/
theorem allInRange_apply (j : S4096x200.Idx) : allInRange posIds j = 1#1 := by
  unfold allInRange
  rw [Host.reduce_eq_foldl]
  exact foldl_andi_one _ inRange_apply _

/-! ## The gather at an index -/

section Gather
variable {α : Type}

/-- The lookup's dimension numbers: result axis 2 runs along a row's entries, the operand's row axis is collapsed
    and is the one the start index names, the start indices' trailing axis holds the one component. -/
abbrev lookupDims : GatherDims S200x64 S4096x200x1 S4096x200x64 := gather_S200x64_S4096x200x1_S4096x200x64_2_0_n_n_0_2_164

/-- THE GATHER READ AT `(b, s, d)`: the operand's row at the start index `idx[b, s, 0]`, read signed and clamped
    into 0..199, entry `d` of it. On the operand's row axis, which the slice collapses and the start index names,
    the operand index is the clamped start alone; on its entry axis, which the start index does not name, it is
    the result's offset coordinate alone. -/
theorem gather_apply (pe : S200x64.Idx → α) (idx : IVec S4096x200x1 32) (b : Fin 4096) (s : Fin 200) (d : Fin 64) :
    Host.gather lookupDims pe idx (ix3 b s d)
      = pe (ix2 (⟨min (idx (ix3 b s (0 : Fin 1))).toInt.toNat 199, by omega⟩ : Fin 200) d) := by
  unfold Host.gather
  congr 1
  funext a
  refine Fin.ext ?_
  match a with
  | ⟨0, _⟩ =>
    show lookupDims.start (ix3 b s d) idx 0 + lookupDims.batchCoord (ix3 b s d) 0 + lookupDims.offCoord (ix3 b s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ lookupDims.startIndexMap from List.mem_singleton.mpr rfl)]
    have hsi : lookupDims.siIdx (ix3 b s d) ⟨List.idxOf (0 : Fin 2) lookupDims.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show lookupDims.start (ix3 b s d) idx 1 + lookupDims.batchCoord (ix3 b s d) 1 + lookupDims.offCoord (ix3 b s d) 1 = d.val
    rw [GatherDims.batchCoord_eq_zero _ _ _ List.not_mem_nil]
    unfold GatherDims.start
    rw [dif_neg (show (1 : Fin 2) ∉ lookupDims.startIndexMap by decide)]
    show 0 + 0 + lookupDims.offCoord (ix3 b s d) 1 = d.val
    simp only [Nat.zero_add]
    rfl

end Gather

/-! ## The result -/

/-- The lookup at the position numbers, at `(b, s, d)`, is the table's entry `(s, d)`, whatever the fill. -/
theorem takeAt_apply {α : Type} (fillv : S4096x200x64.Idx → α) (pe : S200x64.Idx → α) (b : Fin 4096) (s : Fin 200) (d : Fin 64) :
    takeAt fillv pe posIds (ix3 b s d) = pe (ix2 s d) := by
  show Scalar.select (broadcastInDim S4096x200x64 ![0, 1] bcast_S4096x200_S4096x200x64_0_1 (allInRange posIds) (ix3 b s d))
    (rowsAt pe posIds (ix3 b s d)) (fillv (ix3 b s d)) = _
  rw [broadcastInDim_apply _ _ _ (ix3 b s d) (ix2 b s) (fun a => match a with | ⟨0, _⟩ => rfl | ⟨1, _⟩ => rfl),
    allInRange_apply, select_one]
  unfold rowsAt
  rw [gather_apply]
  refine congrArg pe ?_
  have hs : (⟨min (startIdx posIds (ix3 b s (0 : Fin 1))).toInt.toNat 199, by omega⟩ : Fin 200) = s := by
    refine Fin.ext ?_
    show min (startIdx posIds (ix3 b s (0 : Fin 1))).toInt.toNat 199 = s.val
    rw [startIdx_apply, toInt_pos]
    have := s.isLt
    omega
  rw [hs]

/-- The reference's result term is the table repeated along the batch axis. -/
theorem takeAt_eq_tiled {α : Type} (fillv : S4096x200x64.Idx → α) (pe : S200x64.Idx → α) :
    takeAt fillv pe posIds = Cert.Spec.tiled pe := by
  funext j
  obtain ⟨b, s, d, rfl⟩ : ∃ (b : Fin 4096) (s : Fin 200) (d : Fin 64), j = ix3 b s d := ⟨j 0, j 1, j 2, eq_ix3 j⟩
  exact (takeAt_apply fillv pe b s d).trans (Cert.Spec.tiled_apply pe b s d).symm

end Cert.ReferenceIdeal.RefRun

end
-- ==== Proof.RefRun.lean ====
/-
  The reference program's run and value, together: from ANY launch memory, every weakly fair execution of the
  reference terminates with its result buffer holding the position table repeated along the batch axis —
  entry `(b, s, d)` of the result is entry `(s, d)` of the table — and with both argument buffers unchanged.
  No condition on the memory is needed: the indices the program looks the table up at are its own position
  numbers, always in range. The run gives the result as the operations' fold over the launch contents
  (`run_fold`), the fold at the result buffer is the term `refTerm` of the table (`out_eq`), and that term is the
  repeated table index by index (`takeAt_eq_tiled`).
-/
import proofs.«213661_g87797721464909_cont_9to1_m_233_16_alg».proof.Proof.RefFold
import proofs.«213661_g87797721464909_cont_9to1_m_233_16_alg».proof.Proof.RefValue
import Idealize.ShloMosaic.PureOps.Ideal

noncomputable section

namespace Cert.ReferenceIdeal.RefRun

open Idealize.ShloMosaic Idealize.SL.Sem Cert.ReferenceIdeal

theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v3) = Cert.Spec.tiled (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run _ _ _).mono (fun _ h c =>
      ⟨(h c main_v3).trans ((out_eq _).trans (takeAt_eq_tiled _ _)),
        (h c main_arg0).trans (arg0_eq _),
        (h c main_arg1).trans (arg1_eq _)⟩)
    (run_fold m ρ)

end Cert.ReferenceIdeal.RefRun

end
-- ==== Proof.lean ====
/-
  The claim: the kernel broadcasts the position table over the batch axis, as the reference does.

  The kernel flattens the table `pe` (200 rows of 64) to one row of 12800, has each of its 32 vector
  subcores copy that row into 128 rows of a 4096 x 12800 array — subcore `s` of SparseCore `c` is worker
  `2 s + c` and fills rows `128 (2 s + c) …` —, and reshapes the array to 4096 x 200 x 64. The reference
  gathers rows of `pe` at the positions `0 … 199`, the same for every batch row. Both results are the
  one function `Cert.Spec.tiled pe`: entry `(b, s, d)` is `pe (s, d)`. No arithmetic touches an entry, so
  the two agree for every contents of the table, finite or not, and whatever the index array holds: the
  precondition is never opened.

  The frames of the two printed kernels (the word-level one and its idealization, one text read at two
  instances) are one run each, stated with the result named, from which the frame drops the result;
  the reference's frame is its run likewise. Nothing was rewritten by the ideal pass, so `preserves`
  asks nothing.
-/
import proofs.«213661_g87797721464909_cont_9to1_m_233_16_alg».proof.Defs
import proofs.«213661_g87797721464909_cont_9to1_m_233_16_alg».proof.Proof.Gen.Kernel
import proofs.«213661_g87797721464909_cont_9to1_m_233_16_alg».proof.Proof.Gen.Kernel.Skeleton
import proofs.«213661_g87797721464909_cont_9to1_m_233_16_alg».proof.Proof.Gen.KernelIdeal
import proofs.«213661_g87797721464909_cont_9to1_m_233_16_alg».proof.Proof.Gen.KernelIdeal.Skeleton
import proofs.«213661_g87797721464909_cont_9to1_m_233_16_alg».proof.Proof.Gen.ReferenceIdeal
import proofs.«213661_g87797721464909_cont_9to1_m_233_16_alg».proof.Proof.Gen.Pre_input_domain
import proofs.«213661_g87797721464909_cont_9to1_m_233_16_alg».proof.Proof.Spec
import proofs.«213661_g87797721464909_cont_9to1_m_233_16_alg».proof.Proof.KBLaunch
import proofs.«213661_g87797721464909_cont_9to1_m_233_16_alg».proof.Proof.KBTile
import proofs.«213661_g87797721464909_cont_9to1_m_233_16_alg».proof.Proof.KILaunch
import proofs.«213661_g87797721464909_cont_9to1_m_233_16_alg».proof.Proof.KITile
import proofs.«213661_g87797721464909_cont_9to1_m_233_16_alg».proof.Proof.RefRun
import Idealize.ShloMosaic.Adequacy
import Idealize.ShloMosaic.Init

noncomputable section

namespace Cert.Proof

open Idealize.ShloMosaic Idealize.SL.Sem

/-- The word-level kernel runs to the end and leaves its arguments as they were. -/
theorem frame_k : Cert.frame_Kernel := fun m ρ _ =>
  (θ_run Cert.Kernel.defs _ _).mono (fun _ h c => ⟨(h c).2.1, (h c).2.2⟩)
    (Cert.Proof.KB.run_main (F := Bits) m ρ (Cert.Proof.KB.tileObl (F := Bits) m))

/-- So does its idealization. -/
theorem frame_ki : Cert.frame_KernelIdeal := fun m ρ _ =>
  (θ_run Cert.KernelIdeal.defs _ _).mono (fun _ h c => ⟨(h c).2.1, (h c).2.2⟩)
    (Cert.Proof.KI.run_main (F := Ideal) m ρ (Cert.Proof.KI.tileObl (F := Ideal) m))

/-- And the reference. -/
theorem frame_ri : Cert.frame_ReferenceIdeal := fun m ρ _ =>
  (θ_run Cert.ReferenceIdeal.defs _ _).mono (fun _ h c => ⟨(h c).2.1, (h c).2.2⟩)
    (Cert.ReferenceIdeal.RefRun.run m ρ)

/-- From memories agreeing on the table, both end with the table repeated over the batch axis. -/
theorem algebraic : Cert.algebraic_KernelIdeal_ReferenceIdeal := by
  intro m ρ m' ρ' _ hagree
  refine ⟨fun c => Cert.Spec.tiled (m ((c.tc : Thread Cert.KernelIdeal.nD Cert.KernelIdeal.τ).loc Cert.KernelIdeal.main_arg1)),
    Cert.Proof.KI.run_main (F := Ideal) m ρ (Cert.Proof.KI.tileObl (F := Ideal) m), ?_⟩
  refine (θ_run Cert.ReferenceIdeal.defs _ _).mono (fun _ h c => ⟨?_, (h c).2.1, (h c).2.2⟩)
    (Cert.ReferenceIdeal.RefRun.run m' ρ')
  rw [(h c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
